-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x3x4096 : Shape := ⟨3, ![1, 3, 4096]⟩
abbrev S1x1024x1 : Shape := ⟨3, ![1, 1024, 1]⟩
abbrev S1x1x8192 : Shape := ⟨3, ![1, 1, 8192]⟩
abbrev S1024x1 : Shape := ⟨2, ![1024, 1]⟩
abbrev S1x8192 : Shape := ⟨2, ![1, 8192]⟩
abbrev S1024x3 : Shape := ⟨2, ![1024, 3]⟩
abbrev S3x4096 : Shape := ⟨2, ![3, 4096]⟩
abbrev S1024 : Shape := ⟨1, ![1024]⟩
abbrev S4096 : Shape := ⟨1, ![4096]⟩
abbrev S1x4096 : Shape := ⟨2, ![1, 4096]⟩
abbrev S1024x4096 : Shape := ⟨2, ![1024, 4096]⟩
abbrev S4x8192 : Shape := ⟨2, ![4, 8192]⟩
abbrev S_ : Shape := ⟨0, ![]⟩
abbrev S4 : Shape := ⟨1, ![4]⟩

abbrev nBuf : Space → Nat
  | .hbm => 25
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x1, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | .local _ .vmem, ⟨8, _⟩ => ⟨S1024x1, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_mult1 (i : grid0.Coords) : BitVec 32 :=
  let arg2 : BitVec 32 := BitVec.ofNat 32 (i 2).val
  let c4096_i32 : BitVec 32 := 4096#32
  let v36 : BitVec 32 := Scalar.muli arg2 c4096_i32
  v36
def k0_off1 (i : grid0.Coords) : Fin 2 → Nat :=
  let c0_18 : Index := 0#32
  let arg2 : BitVec 32 := BitVec.ofNat 32 (i 2).val
  let c4096_i32 : BitVec 32 := 4096#32
  let v36 : BitVec 32 := Scalar.muli arg2 c4096_i32
  let v37 : BitVec 32 := v36
  let v38 : Index := Scalar.indexCast v37
  ![0, v38.toNat]
def k0_cond3 (i : grid0.Coords) : BitVec 1 :=
  let arg2 : BitVec 32 := BitVec.ofNat 32 (i 2).val
  let c1_i32 : BitVec 32 := 1#32
  let v45 : BitVec 1 := Scalar.cmpi .eq arg2 c1_i32
  let v46 : BitVec 32 := Scalar.extui v45
  let c0_i32_20 : BitVec 32 := 0#32
  let v47 : BitVec 1 := Scalar.cmpi .ne v46 c0_i32_20
  v47

def k0_cond4 (i : grid0.Coords) : BitVec 1 :=
  let arg1 : BitVec 32 := BitVec.ofNat 32 (i 1).val
  let c7_i32 : BitVec 32 := 7#32
  let v48 : BitVec 1 := Scalar.cmpi .eq arg1 c7_i32
  let arg2 : BitVec 32 := BitVec.ofNat 32 (i 2).val
  let c1_i32_21 : BitVec 32 := 1#32
  let v49 : BitVec 1 := Scalar.cmpi .eq arg2 c1_i32_21
  let v50 : BitVec 1 := Scalar.andi v48 v49
  let v51 : BitVec 32 := Scalar.extui v50
  let c0_i32_22 : BitVec 32 := 0#32
  let v52 : BitVec 1 := Scalar.cmpi .ne v51 c0_i32_22
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S1024x3_S1024 : S1024x3.Reduces [1] S1024
  shapeCasts_S1024_S1024x1 : S1024.ShapeCasts S1024x1
  reduces_S3x4096_S4096 : S3x4096.Reduces [0] S4096
  shapeCasts_S4096_S1x4096 : S4096.ShapeCasts S1x4096
  bitsLt_bf16_f32 : FTy.bits .bf16 < FTy.bits .f32
  broadcasts_S1024x1_S1024x4096 : S1024x1.Broadcasts S1024x4096
  broadcasts_S1x4096_S1024x4096 : S1x4096.Broadcasts S1024x4096
  reduces_S1024x4096_S1024 : S1024x4096.Reduces [1] S1024
  reduces_S1024x4096_S4096 : S1024x4096.Reduces [0] S4096
  h_S1x4096 : 0 < S1x4096.numel
  shapeCasts_S1x4096_S1x4096 : S1x4096.ShapeCasts S1x4096
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S1024x3_S3x4096_S1024x4096_1_0_0_1_n_n_wf : DotDims.WF S1024x3 S3x4096 S1024x4096 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S1x4096.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x8192.size a
  hwx0_1 : ∀ i : grid0.Coords, EltTy.bits .f32 = 32 ∨ (Rect.block (s := S4x3x8192) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x4096_S1024x4096_1_0_0_1_n_n : DotDims S1024x3 S3x4096 S1024x4096 where
  lhsContracting := [1]
  rhsContracting := [0]
  lhsNonContracting := [0]
  rhsNonContracting := [1]
  lhsBatch := []
  rhsBatch := []
  wf := dot_S1024x3_S3x4096_S1024x4096_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The two-sided nearest-neighbour loss of two point clouds, as functions of the coordinate arrays.

  For clouds `x0`, `x1` of shape [4, 8192, 3] the squared distance of point `n` of the first cloud to point `m` of the
  second, in batch `b`, is taken in the expanded form |p|² + |q|² − 2·⟨p, q⟩, each term a three-term sum over the
  coordinate axis. Each point's distance to the other cloud is the minimum of these over the other cloud's points, from
  the greatest extended real. The loss is a fixed chain of means over those two tables of minima (`tail`): the two
  programs share it word for word, so it is never opened.
-/
import Idealize.ShloMosaic.PureOps.Ideal
import Idealize.ShloMosaic.Lib.ValueIdx
import Mathlib.Data.Finset.Fold

noncomputable section

namespace Cert.Chamfer

open Idealize.ShloMosaic Idealize.ShloMosaic.ValueIdx

/-- The shapes the statement speaks of. -/
abbrev Cloud : Shape := ⟨3, ![4, 8192, 3]⟩
abbrev Table : Shape := ⟨2, ![4, 8192]⟩
abbrev Batch : Shape := ⟨1, ![4]⟩
abbrev Scal : Shape := ⟨0, ![]⟩

/-- The squared distance of point `n` of `x0` to point `m` of `x1` in batch `b`: (|p|² + |q|²) − 2·⟨p, q⟩. -/
def dist (x0 x1 : Cloud.Idx → EReal) (b : Fin 4) (n m : Fin 8192) : EReal :=
  ((∑ d : Fin 3, x0 (ix3 b n d) * x0 (ix3 b n d)) + (∑ d : Fin 3, x1 (ix3 b m d) * x1 (ix3 b m d)))
    - Ideal.ofBits .f32 0x40000000#32 * (∑ d : Fin 3, x0 (ix3 b n d) * x1 (ix3 b m d))

/-- Point `n` of the first cloud to its nearest point of the second. -/
def toSecond (x0 x1 : Cloud.Idx → EReal) (b : Fin 4) (n : Fin 8192) : EReal :=
  (Finset.univ : Finset (Fin 8192)).fold min ⊤ (fun m => dist x0 x1 b n m)

/-- Point `m` of the second cloud to its nearest point of the first. -/
def toFirst (x0 x1 : Cloud.Idx → EReal) (b : Fin 4) (m : Fin 8192) : EReal :=
  (Finset.univ : Finset (Fin 8192)).fold min ⊤ (fun n => dist x0 x1 b n m)

/-- The two tables of minima, as arrays. -/
def toSecondArr (x0 x1 : Cloud.Idx → EReal) : Table.Idx → EReal := fun j => toSecond x0 x1 (j 0) (j 1)
def toFirstArr (x0 x1 : Cloud.Idx → EReal) : Table.Idx → EReal := fun j => toFirst x0 x1 (j 0) (j 1)

theorem toSecondArr_apply (x0 x1 : Cloud.Idx → EReal) (b : Fin 4) (n : Fin 8192) :
    toSecondArr x0 x1 (ix2 b n) = toSecond x0 x1 b n := rfl
theorem toFirstArr_apply (x0 x1 : Cloud.Idx → EReal) (b : Fin 4) (m : Fin 8192) :
    toFirstArr x0 x1 (ix2 b m) = toFirst x0 x1 b m := rfl

/-- The chain of means both programs end with: each table averaged over its points, the first mean weighted by one, the
    two added, and the batch averaged. -/
def tail (hR1 : Table.ReducesTo [1] Batch) (hS : 0 < Scal.numel) (hB : Scal.BroadcastsInDim Batch (![] : Fin 0 → Fin Batch.rank))
    (hR0 : Batch.ReducesTo [0] Scal) (d1 d2 : FVec Ideal Table .f32) : FVec Ideal Scal .f32 :=
  Host.divf
    (Host.reduceAdd
      (addf
        (mulf (broadcastInDim Batch ![] hB (constant (F := Ideal) Scal .f32 0x3F800000#32))
          (Host.divf (Host.reduceAdd d1 (constant (F := Ideal) Scal .f32 0x00000000#32) hR1 hS)
            (broadcastInDim Batch ![] hB (constant (F := Ideal) Scal .f32 0x46000000#32))))
        (Host.divf (Host.reduceAdd d2 (constant (F := Ideal) Scal .f32 0x00000000#32) hR1 hS)
          (broadcastInDim Batch ![] hB (constant (F := Ideal) Scal .f32 0x46000000#32))))
      (constant (F := Ideal) Scal .f32 0x00000000#32) hR0 hS)
    (constant (F := Ideal) Scal .f32 0x40800000#32)

end Cert.Chamfer

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.RefValue.lean ====
/-
  The reference program's stages as functions of the two coordinate arrays.

  The reference forms the table of squared distances in the expanded form |p|² + |q|² − 2·⟨p, q⟩: the two squared norms
  are three-term sums over the coordinate axis, spread along the other cloud's axis, and the inner products come from one
  batched contraction over the coordinate axis. Read at the entry (b, n, m) this is `dist x0 x1 b n m`. The two minimum
  stages fold `min` from +∞, the greatest extended real, along the last axis (each point of the first cloud to the
  second) and along the middle axis (each point of the second cloud to the first). What follows them is the chain of
  means `tail`, term for term.
-/
import proofs.«162795_j26628797235307_2_alg».proof.Proof.Gen.ReferenceIdeal.Read
import proofs.«162795_j26628797235307_2_alg».proof.Proof.Spec
import proofs.«162795_j26628797235307_2_alg».proof.Proof.LibMinOps

noncomputable section

namespace Cert.Chamfer.Ref

open Cert.ReferenceIdeal Cert.ReferenceIdeal.Gen Cert.ReferenceIdeal.Read Idealize.ShloMosaic Idealize.ShloMosaic.ValueIdx

/-! ## The entries each stage reads, at `(b, n, m)` -/

/-- The squared norm of point `n` of the first cloud is read through two spreading stages: back at `(b, n, d)`. -/
theorem idx_first (b : Fin 4) (n m : Fin 8192) (d : Fin 3) :
    idx_main_v1 (idx_main_v5 (idx_main_v7 (ix3 b n m))) d = ix3 b n d :=
  funext fun a => Fin.ext (by match a with | ⟨0, _⟩ => rfl | ⟨1, _⟩ => rfl | ⟨2, _⟩ => rfl)

/-- The squared norm of point `m` of the second cloud is read through two spreading stages: back at `(b, m, d)`. -/
theorem idx_second (b : Fin 4) (n m : Fin 8192) (d : Fin 3) :
    idx_main_v3 (idx_main_v6 (idx_main_v8 (ix3 b n m))) d = ix3 b m d :=
  funext fun a => Fin.ext (by match a with | ⟨0, _⟩ => rfl | ⟨1, _⟩ => rfl | ⟨2, _⟩ => rfl)

/-- The contraction's left factor at `(b, n, m)`, term `d`: the first cloud at `(b, n, d)`. -/
theorem lidx_dot (b : Fin 4) (n m : Fin 8192) (d : Fin 3) :
    lidx_main_v4 (ix3 b n m) d = ix3 b n d :=
  funext fun a => Fin.ext (by match a with | ⟨0, _⟩ => rfl | ⟨1, _⟩ => rfl | ⟨2, _⟩ => rfl)

/-- The contraction's right factor at `(b, n, m)`, term `d`: the second cloud at `(b, m, d)`. -/
theorem ridx_dot (b : Fin 4) (n m : Fin 8192) (d : Fin 3) :
    ridx_main_v4 (ix3 b n m) d = ix3 b m d :=
  funext fun a => Fin.ext (by match a with | ⟨0, _⟩ => rfl | ⟨1, _⟩ => rfl | ⟨2, _⟩ => rfl)

/-! ## The table of squared distances -/

/-- The reference's distance table at `(b, n, m)` is (|p|² + |q|²) − 2·⟨p, q⟩ for `p` point `n` of the first cloud and
    `q` point `m` of the second. -/
theorem ref_dist (x0 x1 : (⟨S4x8192x3, .f32⟩ : BufTy).Contents (Elt Ideal)) (b : Fin 4) (n m : Fin 8192) :
    val_main_v12 (F := Ideal) x0 x1 (ix3 b n m) = Cert.Chamfer.dist x0 x1 b n m := by
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_apply, val_main_cst_0_apply, val_main_cst_1_apply]
  simp only [val_main_v0_apply, val_main_v2_apply, idx_first, idx_second, lidx_dot, ridx_dot, Ideal.mulf_def,
    Ideal.addf_def, Ideal.subf_def, Ideal.ofBits_def, Ideal.ofBits_zero_f32, zero_add]
  rfl

/-! ## The two tables of minima -/

/-- The minimum along the last axis: each point of the first cloud to its nearest point of the second. -/
theorem ref_toSecond (x0 x1 : (⟨S4x8192x3, .f32⟩ : BufTy).Contents (Elt Ideal)) :
    val_main_v13 (F := Ideal) x0 x1 = Cert.Chamfer.toSecondArr x0 x1 := by
  funext j
  obtain ⟨b, n, rfl⟩ : ∃ (b : Fin 4) (n : Fin 8192), j = ix2 b n := ⟨j 0, j 1, ValueIdx.eq_ix2 j⟩
  unfold val_main_v13
  rw [Cert.MinOps.hostLastMin_apply (val_main_v12 (F := Ideal) x0 x1) (val_main_cst_2 (F := Ideal))
    reducesTo_S4x8192x8192_S4x8192_d2 (by decide) h_S_ b n, val_main_cst_2_apply, Ideal.ofBits_def,
    Cert.MinOps.posInf_eq_top, Cert.Chamfer.toSecondArr_apply]
  exact congrArg (fun f => (Finset.univ : Finset (Fin 8192)).fold min ⊤ f) (funext fun m => ref_dist x0 x1 b n m)

/-- The minimum along the middle axis: each point of the second cloud to its nearest point of the first. -/
theorem ref_toFirst (x0 x1 : (⟨S4x8192x3, .f32⟩ : BufTy).Contents (Elt Ideal)) :
    val_main_v14 (F := Ideal) x0 x1 = Cert.Chamfer.toFirstArr x0 x1 := by
  funext j
  obtain ⟨b, m, rfl⟩ : ∃ (b : Fin 4) (m : Fin 8192), j = ix2 b m := ⟨j 0, j 1, ValueIdx.eq_ix2 j⟩
  unfold val_main_v14
  rw [Cert.MinOps.hostMidMin_apply (val_main_v12 (F := Ideal) x0 x1) (val_main_cst_3 (F := Ideal))
    reducesTo_S4x8192x8192_S4x8192_d1 (by decide) h_S_ b m, val_main_cst_3_apply, Ideal.ofBits_def,
    Cert.MinOps.posInf_eq_top, Cert.Chamfer.toFirstArr_apply]
  exact congrArg (fun f => (Finset.univ : Finset (Fin 8192)).fold min ⊤ f) (funext fun n => ref_dist x0 x1 b n m)

/-! ## The result -/

/-- The reference's result is the chain of means over the two tables of minima. -/
theorem ref_result (x0 x1 : (⟨S4x8192x3, .f32⟩ : BufTy).Contents (Elt Ideal)) :
    val_main_v25 (F := Ideal) x0 x1
      = Cert.Chamfer.tail reducesTo_S4x8192_S4_d1 h_S_ bcast_S_S4 reducesTo_S4_S_d0
          (Cert.Chamfer.toSecondArr x0 x1) (Cert.Chamfer.toFirstArr x0 x1) := by
  rw [← ref_toSecond, ← ref_toFirst]
  rfl

end Cert.Chamfer.Ref

end
-- ==== Proof.Cases.lean ====
/-
  What one grid point leaves behind, case by case.

  A grid point (b, qi, ki) holds rows [1024·qi, 1024·qi + 1024) of the first cloud and columns [4096·ki, 4096·ki + 4096)
  of the second. It keeps two running minima: a column of 1024 entries (each held row against the columns seen so far in
  this sweep of ki) and a row of 8192 entries (each column against the rows seen so far in this sweep of qi). The column
  is reset to +∞ when ki = 0; the row is reset when qi = 0 and ki = 0. Then the column is lowered by the tile's lane
  minima, and the row's segment [4096·ki, 4096·ki + 4096) by the tile's minima down its rows. When ki is last the column
  is copied to the first output's block; when qi and ki are both last the row is copied to the second output's block.
  The four combinations of these conditions that occur are the four cases below; each statement says what the case
  leaves in one of the four places, as a term over the point's two input blocks and what the point before left.
-/
import proofs.«162795_j26628797235307_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The running column (rows of the held block against the columns seen so far) -/

/-- Case A: the column the point before left is lowered by the tile's lane minima. -/
theorem col_A (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i)
    (x0 : Vec F S1x1024x3 .f32) (x1 : Vec F S1x3x4096 .f32) :
    sout0_A_0 c i a3 h3 a4 h4 a5 h5 a6 h6 a7 h7 a8 h8 hc0 hc1 hc2 hc3 x0 x1 = k0_pay1 (k0_pay9 x0 x1 (k0_pay5 (F := F))) := by
  unfold sout0_A_0
  rw [View.read_writes_eq_canon _ _ _ (scover0_A_0 c i a3 h3 a4 h4 a5 h5 a6 h6 a7 h7 a8 h8 hc0 hc1 hc2 hc3 x0 x1)]
  unfold kernelRun0_A
  dsimp only
  sl_unfold_words
  rw [View.canon_cons_unit_zero (S := S1024x1) hz2, View.readCov_unit_zero (S := S1024x1) _ hz2]
  simp only [View.readAt_eq_ld, h3.read_unread, h4.read_unread, View.ld_unit_zero (S := S1x1024x3) hz3,
    View.ld_unit_zero (S := S1x3x4096) hz3]

/-- Case C: the column the point before left is lowered by the tile's lane minima. -/
theorem col_C (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : ¬cond0_1 i) (hc2 : ¬cond0_2 i) (hc3 : ¬cond0_3 i)
    (x0 : Vec F S1x1024x3 .f32) (x1 : Vec F S1x3x4096 .f32) (xs1 : Vec F S1x8192 .f32) :
    sout0_C_0 c i a3 h3 a4 h4 a5 h5 a6 h6 a7 h7 a8 h8 hc0 hc1 hc2 hc3 x0 x1 xs1 = k0_pay1 (k0_pay9 x0 x1 (k0_pay5 (F := F))) := by
  unfold sout0_C_0
  rw [View.read_writes_eq_canon _ _ _ (scover0_C_0 c i a3 h3 a4 h4 a5 h5 a6 h6 a7 h7 a8 h8 hc0 hc1 hc2 hc3 x0 x1 xs1)]
  unfold kernelRun0_C
  dsimp only
  sl_unfold_words
  rw [View.canon_cons_unit_zero (S := S1024x1) hz2, View.readCov_unit_zero (S := S1024x1) _ hz2]
  simp only [View.readAt_eq_ld, h3.read_unread, h4.read_unread, View.ld_unit_zero (S := S1x1024x3) hz3,
    View.ld_unit_zero (S := S1x3x4096) hz3]

/-- Case B: the column the point before left is lowered by the tile's lane minima. -/
theorem col_B (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i)
    (x0 : Vec F S1x1024x3 .f32) (x1 : Vec F S1x3x4096 .f32) (xs0 : Vec F S1024x1 .f32) (xs1 : Vec F S1x8192 .f32) :
    sout0_B_0 c i a3 h3 a4 h4 a5 h5 a6 h6 a7 h7 a8 h8 hc0 hc1 hc2 hc3 x0 x1 xs0 xs1 = k0_pay1 (k0_pay9 x0 x1 xs0) := by
  unfold sout0_B_0
  rw [View.read_writes_eq_canon _ _ _ (scover0_B_0 c i a3 h3 a4 h4 a5 h5 a6 h6 a7 h7 a8 h8 hc0 hc1 hc2 hc3 x0 x1 xs0 xs1)]
  unfold kernelRun0_B
  dsimp only
  sl_unfold_words
  rw [View.canon_unit_zero (S := S1024x1) hz2]
  simp only [View.readAt_eq_ld, h3.read_unread, h4.read_unread, h7.read_unread, View.ld_unit_zero (S := S1x1024x3) hz3,
    View.ld_unit_zero (S := S1x3x4096) hz3, View.ld_unit_zero (S := S1024x1) hz2]

/-- Case D: the column the point before left is lowered by the tile's lane minima. -/
theorem col_D (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i)
    (x0 : Vec F S1x1024x3 .f32) (x1 : Vec F S1x3x4096 .f32) (xs0 : Vec F S1024x1 .f32) (xs1 : Vec F S1x8192 .f32) :
    sout0_D_0 c i a3 h3 a4 h4 a5 h5 a6 h6 a7 h7 a8 h8 hc0 hc1 hc2 hc3 x0 x1 xs0 xs1 = k0_pay1 (k0_pay9 x0 x1 xs0) := by
  unfold sout0_D_0
  rw [View.read_writes_eq_canon _ _ _ (scover0_D_0 c i a3 h3 a4 h4 a5 h5 a6 h6 a7 h7 a8 h8 hc0 hc1 hc2 hc3 x0 x1 xs0 xs1)]
  unfold kernelRun0_D
  dsimp only
  sl_unfold_words
  rw [View.canon_unit_zero (S := S1024x1) hz2]
  simp only [View.readAt_eq_ld, h3.read_unread, h4.read_unread, h7.read_unread, View.ld_unit_zero (S := S1x1024x3) hz3,
    View.ld_unit_zero (S := S1x3x4096) hz3, View.ld_unit_zero (S := S1024x1) hz2]

/-! ## The first output (written when the sweep over the column blocks ends) -/

/-- Case B: the first output's block is the column just lowered. -/
theorem out2_B (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i)
    (x0 : Vec F S1x1024x3 .f32) (x1 : Vec F S1x3x4096 .f32) (xs0 : Vec F S1024x1 .f32) (xs1 : Vec F S1x8192 .f32) :
    out0_B_2 c i a3 h3 a4 h4 a5 h5 a6 h6 a7 h7 a8 h8 hc0 hc1 hc2 hc3 x0 x1 xs0 xs1 = k0_pay3 (k0_pay1 (k0_pay9 x0 x1 xs0)) := by
  unfold out0_B_2
  rw [View.read_writes_eq_canon _ _ _ (cover0_B_2 c i a3 h3 a4 h4 a5 h5 a6 h6 a7 h7 a8 h8 hc0 hc1 hc2 hc3 x0 x1 xs0 xs1)]
  unfold kernelRun0_B
  dsimp only
  sl_unfold_words
  rw [View.canon_unit_zero (S := S1x1024x1) hz3, View.readCov_unit_zero (S := S1024x1) _ hz2]
  simp only [View.readAt_eq_ld, h3.read_unread, h4.read_unread, h7.read_unread, View.ld_unit_zero (S := S1x1024x3) hz3,
    View.ld_unit_zero (S := S1x3x4096) hz3, View.ld_unit_zero (S := S1024x1) hz2]

/-- Case D: the first output's block is the column just lowered. -/
theorem out2_D (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i)
    (x0 : Vec F S1x1024x3 .f32) (x1 : Vec F S1x3x4096 .f32) (xs0 : Vec F S1024x1 .f32) (xs1 : Vec F S1x8192 .f32) :
    out0_D_2 c i a3 h3 a4 h4 a5 h5 a6 h6 a7 h7 a8 h8 hc0 hc1 hc2 hc3 x0 x1 xs0 xs1 = k0_pay3 (k0_pay1 (k0_pay9 x0 x1 xs0)) := by
  unfold out0_D_2
  rw [View.read_writes_eq_canon _ _ _ (cover0_D_2 c i a3 h3 a4 h4 a5 h5 a6 h6 a7 h7 a8 h8 hc0 hc1 hc2 hc3 x0 x1 xs0 xs1)]
  unfold kernelRun0_D
  dsimp only
  sl_unfold_words
  rw [View.canon_unit_zero (S := S1x1024x1) hz3, View.readCov_unit_zero (S := S1024x1) _ hz2]
  simp only [View.readAt_eq_ld, h3.read_unread, h4.read_unread, h7.read_unread, View.ld_unit_zero (S := S1x1024x3) hz3,
    View.ld_unit_zero (S := S1x3x4096) hz3, View.ld_unit_zero (S := S1024x1) hz2]

/-! ## The running row (columns against the rows seen so far), read one entry at a time -/

/-- One store through the whole buffer at zero offsets, read back: its payload. -/
theorem read_single_unit_zero {S : Shape} {e : EltTy} {sig' : RefSig} {κ : Kind} {sp : Space} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- Case B: inside the point's segment the row the point before left is lowered by the tile's minima down its rows. -/
theorem row_B_hit (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i)
    (x0 : Vec F S1x1024x3 .f32) (x1 : Vec F S1x3x4096 .f32) (xs0 : Vec F S1024x1 .f32) (xs1 : Vec F S1x8192 .f32) (k : ℕ) (hk : (i 2).val = k) (q : Fin 4096) (col : Fin 8192)
    (hcol : col.val = 4096 * k + q.val) :
    sout0_B_1 c i a3 h3 a4 h4 a5 h5 a6 h6 a7 h7 a8 h8 hc0 hc1 hc2 hc3 x0 x1 xs0 xs1 (ix2 (0 : Fin 1) col)
      = k0_pay2 (k0_pay8 x0 x1) (View.ld xs1 (Rect.unit (s := S1x8192) (k0_off1 i) S1x4096.size (k0_off1_inb i))) (ix2 (0 : Fin 1) q) := by
  subst hk
  unfold sout0_B_1
  unfold kernelRun0_B
  dsimp only
  sl_unfold_words
  refine (View.read_writes_cons_unit_of_mem a8.view (h8.unread xs1) _ _ [] (ix2 (0 : Fin 1) col) (ix2 (0 : Fin 1) q) (k0_off1_eq i)
    (fun a => by match a with | ⟨0, _⟩ => rfl | ⟨1, _⟩ => exact hcol)).trans ?_
  simp only [View.readAt_eq_ld, h3.read_unread, h4.read_unread, h8.read_unread, View.ld_unit_zero (S := S1x1024x3) hz3,
    View.ld_unit_zero (S := S1x3x4096) hz3]

/-- Case B: outside the point's segment the row is as the point before left it. -/
theorem row_B_miss (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : ¬cond0_3 i)
    (x0 : Vec F S1x1024x3 .f32) (x1 : Vec F S1x3x4096 .f32) (xs0 : Vec F S1024x1 .f32) (xs1 : Vec F S1x8192 .f32) (k : ℕ) (hk : (i 2).val = k) (col : Fin 8192)
    (h : col.val < 4096 * k ∨ 4096 * k + 4096 ≤ col.val) :
    sout0_B_1 c i a3 h3 a4 h4 a5 h5 a6 h6 a7 h7 a8 h8 hc0 hc1 hc2 hc3 x0 x1 xs0 xs1 (ix2 (0 : Fin 1) col) = xs1 (ix2 (0 : Fin 1) col) := by
  subst hk
  unfold sout0_B_1
  unfold kernelRun0_B
  dsimp only
  sl_unfold_words
  refine (View.read_writes_cons_unit_of_not_mem a8.view (h8.unread xs1) _ _ [] (ix2 (0 : Fin 1) col) (k0_off1_eq i) (1 : Fin 2) ?_).trans ?_
  · exact h
  rw [View.writes_nil, h8.read_unread]

/-- Case C: inside the point's segment the row the point before left is lowered by the tile's minima down its rows. -/
theorem row_C_hit (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : ¬cond0_1 i) (hc2 : ¬cond0_2 i) (hc3 : ¬cond0_3 i)
    (x0 : Vec F S1x1024x3 .f32) (x1 : Vec F S1x3x4096 .f32) (xs1 : Vec F S1x8192 .f32) (k : ℕ) (hk : (i 2).val = k) (q : Fin 4096) (col : Fin 8192)
    (hcol : col.val = 4096 * k + q.val) :
    sout0_C_1 c i a3 h3 a4 h4 a5 h5 a6 h6 a7 h7 a8 h8 hc0 hc1 hc2 hc3 x0 x1 xs1 (ix2 (0 : Fin 1) col)
      = k0_pay2 (k0_pay8 x0 x1) (View.ld xs1 (Rect.unit (s := S1x8192) (k0_off1 i) S1x4096.size (k0_off1_inb i))) (ix2 (0 : Fin 1) q) := by
  subst hk
  unfold sout0_C_1
  unfold kernelRun0_C
  dsimp only
  sl_unfold_words
  refine (View.read_writes_cons_unit_of_mem a8.view (h8.unread xs1) _ _ [] (ix2 (0 : Fin 1) col) (ix2 (0 : Fin 1) q) (k0_off1_eq i)
    (fun a => by match a with | ⟨0, _⟩ => rfl | ⟨1, _⟩ => exact hcol)).trans ?_
  simp only [View.readAt_eq_ld, h3.read_unread, h4.read_unread, h8.read_unread, View.ld_unit_zero (S := S1x1024x3) hz3,
    View.ld_unit_zero (S := S1x3x4096) hz3]

/-- Case C: outside the point's segment the row is as the point before left it. -/
theorem row_C_miss (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : ¬cond0_1 i) (hc2 : ¬cond0_2 i) (hc3 : ¬cond0_3 i)
    (x0 : Vec F S1x1024x3 .f32) (x1 : Vec F S1x3x4096 .f32) (xs1 : Vec F S1x8192 .f32) (k : ℕ) (hk : (i 2).val = k) (col : Fin 8192)
    (h : col.val < 4096 * k ∨ 4096 * k + 4096 ≤ col.val) :
    sout0_C_1 c i a3 h3 a4 h4 a5 h5 a6 h6 a7 h7 a8 h8 hc0 hc1 hc2 hc3 x0 x1 xs1 (ix2 (0 : Fin 1) col) = xs1 (ix2 (0 : Fin 1) col) := by
  subst hk
  unfold sout0_C_1
  unfold kernelRun0_C
  dsimp only
  sl_unfold_words
  refine (View.read_writes_cons_unit_of_not_mem a8.view (h8.unread xs1) _ _ [] (ix2 (0 : Fin 1) col) (k0_off1_eq i) (1 : Fin 2) ?_).trans ?_
  · exact h
  rw [View.writes_nil, h8.read_unread]

/-- Case D: inside the point's segment the row the point before left is lowered by the tile's minima down its rows. -/
theorem row_D_hit (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i)
    (x0 : Vec F S1x1024x3 .f32) (x1 : Vec F S1x3x4096 .f32) (xs0 : Vec F S1024x1 .f32) (xs1 : Vec F S1x8192 .f32) (k : ℕ) (hk : (i 2).val = k) (q : Fin 4096) (col : Fin 8192)
    (hcol : col.val = 4096 * k + q.val) :
    sout0_D_1 c i a3 h3 a4 h4 a5 h5 a6 h6 a7 h7 a8 h8 hc0 hc1 hc2 hc3 x0 x1 xs0 xs1 (ix2 (0 : Fin 1) col)
      = k0_pay2 (k0_pay8 x0 x1) (View.ld xs1 (Rect.unit (s := S1x8192) (k0_off1 i) S1x4096.size (k0_off1_inb i))) (ix2 (0 : Fin 1) q) := by
  subst hk
  unfold sout0_D_1
  unfold kernelRun0_D
  dsimp only
  sl_unfold_words
  refine (View.read_writes_cons_unit_of_mem a8.view (h8.unread xs1) _ _ [] (ix2 (0 : Fin 1) col) (ix2 (0 : Fin 1) q) (k0_off1_eq i)
    (fun a => by match a with | ⟨0, _⟩ => rfl | ⟨1, _⟩ => exact hcol)).trans ?_
  simp only [View.readAt_eq_ld, h3.read_unread, h4.read_unread, h8.read_unread, View.ld_unit_zero (S := S1x1024x3) hz3,
    View.ld_unit_zero (S := S1x3x4096) hz3]

/-- Case D: outside the point's segment the row is as the point before left it. -/
theorem row_D_miss (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i)
    (x0 : Vec F S1x1024x3 .f32) (x1 : Vec F S1x3x4096 .f32) (xs0 : Vec F S1024x1 .f32) (xs1 : Vec F S1x8192 .f32) (k : ℕ) (hk : (i 2).val = k) (col : Fin 8192)
    (h : col.val < 4096 * k ∨ 4096 * k + 4096 ≤ col.val) :
    sout0_D_1 c i a3 h3 a4 h4 a5 h5 a6 h6 a7 h7 a8 h8 hc0 hc1 hc2 hc3 x0 x1 xs0 xs1 (ix2 (0 : Fin 1) col) = xs1 (ix2 (0 : Fin 1) col) := by
  subst hk
  unfold sout0_D_1
  unfold kernelRun0_D
  dsimp only
  sl_unfold_words
  refine (View.read_writes_cons_unit_of_not_mem a8.view (h8.unread xs1) _ _ [] (ix2 (0 : Fin 1) col) (k0_off1_eq i) (1 : Fin 2) ?_).trans ?_
  · exact h
  rw [View.writes_nil, h8.read_unread]

/-- Case A: the row starts from +∞; inside the point's segment it is lowered by the tile's minima down its rows. -/
theorem row_A_hit (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i)
    (x0 : Vec F S1x1024x3 .f32) (x1 : Vec F S1x3x4096 .f32) (k : ℕ) (hk : (i 2).val = k) (q : Fin 4096) (col : Fin 8192)
    (hcol : col.val = 4096 * k + q.val) :
    sout0_A_1 c i a3 h3 a4 h4 a5 h5 a6 h6 a7 h7 a8 h8 hc0 hc1 hc2 hc3 x0 x1 (ix2 (0 : Fin 1) col)
      = k0_pay2 (k0_pay8 x0 x1) (View.ld (k0_pay6 (F := F)) (Rect.unit (s := S1x8192) (k0_off1 i) S1x4096.size (k0_off1_inb i))) (ix2 (0 : Fin 1) q) := by
  subst hk
  unfold sout0_A_1
  unfold kernelRun0_A
  dsimp only
  sl_unfold_words
  refine (View.read_writes_cons_unit_of_mem VS0_1 VS0_1.junk _ _ _ (ix2 (0 : Fin 1) col) (ix2 (0 : Fin 1) q) (k0_off1_eq i)
    (fun a => by match a with | ⟨0, _⟩ => rfl | ⟨1, _⟩ => exact hcol)).trans ?_
  simp only [View.readAt_eq_ld, h3.read_unread, h4.read_unread, View.ld_unit_zero (S := S1x1024x3) hz3,
    View.ld_unit_zero (S := S1x3x4096) hz3]
  rw [read_single_unit_zero (F := F) a8.view a8.view.junk hz2 inb_S1x8192_S1x8192_0_0 (k0_pay6 (F := F))]

/-- Case A: outside the point's segment the row is +∞. -/
theorem row_A_miss (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : cond0_0 i) (hc1 : cond0_1 i) (hc2 : ¬cond0_2 i) (hc3 : ¬cond0_3 i)
    (x0 : Vec F S1x1024x3 .f32) (x1 : Vec F S1x3x4096 .f32) (k : ℕ) (hk : (i 2).val = k) (col : Fin 8192)
    (h : col.val < 4096 * k ∨ 4096 * k + 4096 ≤ col.val) :
    sout0_A_1 c i a3 h3 a4 h4 a5 h5 a6 h6 a7 h7 a8 h8 hc0 hc1 hc2 hc3 x0 x1 (ix2 (0 : Fin 1) col) = k0_pay6 (F := F) (ix2 (0 : Fin 1) col) := by
  subst hk
  unfold sout0_A_1
  unfold kernelRun0_A
  dsimp only
  sl_unfold_words
  refine (View.read_writes_cons_unit_of_not_mem VS0_1 VS0_1.junk _ _ _ (ix2 (0 : Fin 1) col) (k0_off1_eq i) (1 : Fin 2) ?_).trans ?_
  · exact h
  exact congrFun (read_single_unit_zero (F := F) VS0_1 VS0_1.junk hz2 inb_S1x8192_S1x8192_0_0 (k0_pay6 (F := F))) _

/-! ## The second output (written at the last point of a batch) -/

/-- Case D: the second output's block is the row just lowered. -/
theorem out3_D (c : Dev nD) (i : grid0.Coords) (a3 : Memref sig .tc .vmem S1x1024x3 .f32) (h3 : a3.IsWhole) (a4 : Memref sig .tc .vmem S1x3x4096 .f32) (h4 : a4.IsWhole) (a5 : Memref sig .tc .vmem S1x1024x1 .f32) (h5 : a5.IsWhole) (a6 : Memref sig .tc .vmem S1x1x8192 .f32) (h6 : a6.IsWhole) (a7 : Memref sig .tc .vmem S1024x1 .f32) (h7 : a7.IsWhole) (a8 : Memref sig .tc .vmem S1x8192 .f32) (h8 : a8.IsWhole) (hc0 : ¬cond0_0 i) (hc1 : ¬cond0_1 i) (hc2 : cond0_2 i) (hc3 : cond0_3 i)
    (x0 : Vec F S1x1024x3 .f32) (x1 : Vec F S1x3x4096 .f32) (xs0 : Vec F S1024x1 .f32) (xs1 : Vec F S1x8192 .f32) :
    out0_D_3 c i a3 h3 a4 h4 a5 h5 a6 h6 a7 h7 a8 h8 hc0 hc1 hc2 hc3 x0 x1 xs0 xs1 = k0_pay4 (sout0_D_1 c i a3 h3 a4 h4 a5 h5 a6 h6 a7 h7 a8 h8 hc0 hc1 hc2 hc3 x0 x1 xs0 xs1) := by
  unfold out0_D_3 sout0_D_1
  rw [View.read_writes_eq_canon _ _ _ (cover0_D_3 c i a3 h3 a4 h4 a5 h5 a6 h6 a7 h7 a8 h8 hc0 hc1 hc2 hc3 x0 x1 xs0 xs1)]
  unfold kernelRun0_D
  dsimp only
  sl_unfold_words
  rw [View.canon_unit_zero (S := S1x1x8192) hz3]
  simp only [View.readAt_eq_ld, View.ld_unit_zero (S := S1x8192) hz2]

end Cert.KernelIdeal.Cases

end
-- ==== Proof.Blocks.lean ====
/-
  The blocks a grid point reads, at array coordinates.

  The 64 grid points are numbered t = 16·b + 2·qi + ki (b < 4 the batch, qi < 8 the block of 1024 rows of the first
  cloud, ki < 2 the block of 4096 columns of the second). Point t's block of the first cloud, read at (0, r, d), is the
  first cloud at (b, 1024·qi + r, d); its block of the transposed second cloud, read at (0, d, q), is the transposed
  cloud at (b, d, 4096·ki + q), that is the second cloud itself at (b, 4096·ki + q, d): the transposition is the one host
  operation before the kernel. The block coordinates of the four windows, as functions of t, are decided once over the
  grid.
-/
import proofs.«162795_j26628797235307_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## The windows' block coordinates over the grid -/

theorem idx0 : ∀ t : Fin cfg0.N, win0_0.index t (0 : Fin 3) = t.val / 16 ∧ win0_0.index t (1 : Fin 3) = t.val % 16 / 2 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val % 2 :=
  (by decide +kernel : ∀ t : Fin grid0.N, _)
theorem idx2 : ∀ t : Fin cfg0.N, win0_2.index t (0 : Fin 3) = t.val / 16 ∧ win0_2.index t (1 : Fin 3) = t.val % 16 / 2 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)
/-- The last grid coordinate of point t is t mod 2. -/
theorem coord2 : ∀ t : Fin cfg0.N, (grid0.coords t 2).val = t.val % 2 :=
  (by decide +kernel : ∀ t : Fin grid0.N, _)

/-! ## The transposed second cloud -/

/-- The kernel's second operand is the second cloud with its last two axes exchanged. -/
theorem V_transposed (c : Dev nD) :
    (V m c main_v0 : S4x3x8192.Idx → Elt F .f32)
      = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- Read at (b, d, j) it is the second cloud at (b, j, d). -/
theorem V_transposed_apply (c : Dev nD) (b : Fin 4) (d : Fin 3) (j : Fin 8192) :
    (V m c main_v0 : S4x3x8192.Idx → Elt F .f32) (ix3 b d j) = m ((c : Thread nD τ).loc main_arg1) (ix3 b j d) := by
  rw [V_transposed]
  exact transpose_ix3_021_apply _ transposes_S4x8192x3_S4x3x8192_0_2_1 b d j

/-! ## The two input blocks -/

/-- Point t's block of the first cloud at (0, r, d): the cloud at (b, 1024·qi + r, d). -/
theorem iblk0_apply (c : Dev nD) (t : Fin cfg0.N) (r : Fin 1024) (d : Fin 3) (b : Fin 4) (n : Fin 8192)
    (hb : b.val = t.val / 16) (hn : n.val = 1024 * (t.val % 16 / 2) + r.val) :
    (iblk m c 0 t : Vec F S1x1024x3 .f32) (ix3 (0 : Fin 1) r d) = m ((c : Thread nD τ).loc main_arg0) (ix3 b n d) := by
  rw [← V_main_arg0 m c]
  unfold iblk
  rw [View.read_apply]
  show V m c main_arg0 _ = V m c main_arg0 _
  congr 1
  funext a
  apply Fin.ext
  obtain ⟨h0, h1, h2⟩ := idx0 t
  match a with
  | ⟨0, _⟩ => show win0_0.index t 0 * 1 + 1 * 0 = b.val; rw [h0]; omega
  | ⟨1, _⟩ => show win0_0.index t 1 * 1024 + 1 * r.val = n.val; rw [h1]; omega
  | ⟨2, _⟩ => show win0_0.index t 2 * 3 + 1 * d.val = d.val; rw [h2]; omega

/-- Point t's block of the transposed second cloud at (0, d, q): the second cloud at (b, 4096·ki + q, d). -/
theorem iblk1_apply (c : Dev nD) (t : Fin cfg0.N) (d : Fin 3) (q : Fin 4096) (b : Fin 4) (j : Fin 8192)
    (hb : b.val = t.val / 16) (hj : j.val = 4096 * (t.val % 2) + q.val) :
    (iblk m c 1 t : Vec F S1x3x4096 .f32) (ix3 (0 : Fin 1) d q) = m ((c : Thread nD τ).loc main_arg1) (ix3 b j d) := by
  rw [← V_transposed_apply m c b d j]
  unfold iblk
  rw [View.read_apply]
  show V m c main_v0 _ = V m c main_v0 _
  congr 1
  funext a
  apply Fin.ext
  obtain ⟨h0, h1, h2⟩ := idx1 t
  match a with
  | ⟨0, _⟩ => show win0_1.index t 0 * 1 + 1 * 0 = b.val; rw [h0]; omega
  | ⟨1, _⟩ => show win0_1.index t 1 * 3 + 1 * d.val = d.val; rw [h1]; omega
  | ⟨2, _⟩ => show win0_1.index t 2 * 4096 + 1 * q.val = j.val; rw [h2]; omega

end Cert.KernelIdeal.Blocks

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.Payload.lean ====
/-
  The kernel body's arithmetic, read at an index, on the extended reals.

  One grid point holds a block `x0 : [1, 1024, 3]` of the first cloud and a block `x1 : [1, 3, 4096]` of the second
  cloud with the coordinate axis first. The tile of squared distances is taken in the expanded form
  |p|² + |q|² − 2·⟨p, q⟩: the squared norms of the rows of the first block, kept as a column and spread along the rows;
  the squared norms of the columns of the second block, kept as a row and spread down the rows; and the inner products,
  one matrix product of the two blocks over the coordinate axis into a zero accumulator (the narrowing of its operands
  is the identity on extended reals). Read at `(r, q)` this is `blockDist x0 x1 r q`. The tile's minimum down the rows
  is, at lane `q`, the fold of `min` from +∞ over `r`; the running column is lowered, at row `r`, by the fold of `min`
  from +∞ over the lanes `q`. The remaining payloads are layout changes, an elementwise minimum, and the splat of +∞.
-/
import proofs.«162795_j26628797235307_2_alg».proof.Proof.Gen.KernelIdeal.Skeleton
import proofs.«162795_j26628797235307_2_alg».proof.Proof.LibKeepdims
import proofs.«162795_j26628797235307_2_alg».proof.Proof.LibMinOps
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The squared distance of row `r` of the first block to column `q` of the second: (|p|² + |q|²) − 2·⟨p, q⟩. -/
def blockDist (x0 : Vec Ideal S1x1024x3 .f32) (x1 : Vec Ideal S1x3x4096 .f32) (r : Fin 1024) (q : Fin 4096) : EReal :=
  ((∑ d : Fin 3, x0 (ix3 (0 : Fin 1) r d) * x0 (ix3 (0 : Fin 1) r d)) + (∑ d : Fin 3, x1 (ix3 (0 : Fin 1) d q) * x1 (ix3 (0 : Fin 1) d q)))
    - Ideal.ofBits .f32 0x40000000#32 * (∑ d : Fin 3, x0 (ix3 (0 : Fin 1) r d) * x1 (ix3 (0 : Fin 1) d q))

/-! ## The squared norms of the columns, as a row spread down the rows -/

/-- Each column's squared norm of a `[b, c]` array, kept as a row `[1, c]` and broadcast down the rows of `[a, c]`: at
    `(p, q)` the sum over `k` of the square at `(k, q)`, the same in every row. -/
theorem colSumSq_row_bcast_apply {a b c : ℕ} (w : FVec Ideal ⟨2, ![b, c]⟩ .f32)
    (hR : (⟨2, ![b, c]⟩ : Shape).Reduces [0] ⟨1, ![c]⟩) (hφ : FKind.Formats .f32)
    (hacc : (0x00000000#32 : BitVec 32) = FKind.add.neutral .f32 hφ)
    (hC : (⟨1, ![c]⟩ : Shape).ShapeCasts ⟨2, ![1, c]⟩) (hB : (⟨2, ![1, c]⟩ : Shape).Broadcasts ⟨2, ![a, c]⟩)
    (p : Fin a) (q : Fin c) :
    broadcastTo ⟨2, ![a, c]⟩ (shapeCast ⟨2, ![1, c]⟩
        (multiReduction (F := Ideal) .add [0] ⟨1, ![c]⟩ (mulf w w) 0x00000000#32 hR hφ hacc) hC) hB (ix2 p q)
      = ∑ k : Fin b, w (ix2 k q) * w (ix2 k q) :=
  (broadcastTo_1b_ab_apply _ hB p q).trans
    ((shapeCast_a_1a_apply _ hC 0 q).trans (Cert.MinOps.rowsSum_apply (mulf w w) _ hR hφ hacc q))

/-! ## The matrix product of the two blocks -/

/-- The left operand's row coordinate at output `(r, q)` is `r`. -/
theorem lhs_dot_0 (i : S1024x4096.Idx) (k : dot_S1024x3_S3x4096_S1024x4096_1_0_0_1_n_n.contr.Idx) :
    (dot_S1024x3_S3x4096_S1024x4096_1_0_0_1_n_n.lhsIdx i k 0).val = (i 0).val := by
  unfold DotDims.lhsIdx
  rw [dif_neg (show ¬(0 : Fin S1024x3.rank) ∈ dot_S1024x3_S3x4096_S1024x4096_1_0_0_1_n_n.lhsBatch by decide),
    dif_pos (show (0 : Fin S1024x3.rank) ∈ dot_S1024x3_S3x4096_S1024x4096_1_0_0_1_n_n.lhsNonContracting by decide)]
  rfl

/-- The left operand's coordinate-axis coordinate is the contraction's. -/
theorem lhs_dot_1 (i : S1024x4096.Idx) (k : dot_S1024x3_S3x4096_S1024x4096_1_0_0_1_n_n.contr.Idx) :
    (dot_S1024x3_S3x4096_S1024x4096_1_0_0_1_n_n.lhsIdx i k 1).val = (k ⟨0, by decide⟩).val :=
  dot_S1024x3_S3x4096_S1024x4096_1_0_0_1_n_n.lhsIdx_val_of_single rfl i k

/-- The right operand's coordinate-axis coordinate is the contraction's. -/
theorem rhs_dot_0 (i : S1024x4096.Idx) (k : dot_S1024x3_S3x4096_S1024x4096_1_0_0_1_n_n.contr.Idx) :
    (dot_S1024x3_S3x4096_S1024x4096_1_0_0_1_n_n.rhsIdx i k 0).val = (k ⟨0, by decide⟩).val :=
  dot_S1024x3_S3x4096_S1024x4096_1_0_0_1_n_n.rhsIdx_val_of_single rfl i k

/-- The right operand's lane coordinate at output `(r, q)` is `q`. -/
theorem rhs_dot_1 (i : S1024x4096.Idx) (k : dot_S1024x3_S3x4096_S1024x4096_1_0_0_1_n_n.contr.Idx) :
    (dot_S1024x3_S3x4096_S1024x4096_1_0_0_1_n_n.rhsIdx i k 1).val = (i 1).val := by
  unfold DotDims.rhsIdx
  rw [dif_neg (show ¬(1 : Fin S3x4096.rank) ∈ dot_S1024x3_S3x4096_S1024x4096_1_0_0_1_n_n.rhsBatch by decide),
    dif_pos (show (1 : Fin S3x4096.rank) ∈ dot_S1024x3_S3x4096_S1024x4096_1_0_0_1_n_n.rhsNonContracting by decide)]
  rfl

/-- The product of a `[1024, 3]` block and a `[3, 4096]` block into a zero accumulator reads, at `(r, q)`, the
    three-term inner product of row `r` and column `q`. -/
theorem matmul_blocks_apply (v9 : FVec Ideal S1024x3 .f32) (v11 : FVec Ideal S3x4096 .f32) (r : Fin 1024) (q : Fin 4096) :
    matmul dot_S1024x3_S3x4096_S1024x4096_1_0_0_1_n_n none (truncf .bf16 v9 bitsLt_bf16_f32)
        (truncf .bf16 v11 bitsLt_bf16_f32) (constant (F := Ideal) S1024x4096 .f32 0x00000000#32) (ix2 r q)
      = ∑ d : Fin 3, v9 (ix2 r d) * v11 (ix2 d q) := by
  simp only [matmul]
  rw [Ideal.matmul_constant_zero_apply,
    ← Equiv.sum_comp (ValueIdx.contrEquiv1 dot_S1024x3_S3x4096_S1024x4096_1_0_0_1_n_n 3 rfl rfl).symm]
  refine Finset.sum_congr rfl fun k _ => ?_
  have hk := ValueIdx.contrEquiv1_symm_val dot_S1024x3_S3x4096_S1024x4096_1_0_0_1_n_n 3 rfl rfl k
  have el : dot_S1024x3_S3x4096_S1024x4096_1_0_0_1_n_n.lhsIdx (ix2 r q)
      ((ValueIdx.contrEquiv1 dot_S1024x3_S3x4096_S1024x4096_1_0_0_1_n_n 3 rfl rfl).symm k) = ix2 r k :=
    funext fun a => Fin.ext (by
      match a with
      | ⟨0, _⟩ => exact lhs_dot_0 _ _
      | ⟨1, _⟩ => exact (lhs_dot_1 _ _).trans hk)
  have er : dot_S1024x3_S3x4096_S1024x4096_1_0_0_1_n_n.rhsIdx (ix2 r q)
      ((ValueIdx.contrEquiv1 dot_S1024x3_S3x4096_S1024x4096_1_0_0_1_n_n 3 rfl rfl).symm k) = ix2 k q :=
    funext fun a => Fin.ext (by
      match a with
      | ⟨0, _⟩ => exact (rhs_dot_0 _ _).trans hk
      | ⟨1, _⟩ => exact rhs_dot_1 _ _)
  rw [el, er]
  rfl

/-! ## The tile of squared distances -/

/-- The tile over the two blocks with their leading unit axis dropped: at `(r, q)`, (|p|² + |q|²) − 2·⟨p, q⟩ for `p` row
    `r` of the first and `q` column `q` of the second. -/
theorem tile_apply (v9 : FVec Ideal S1024x3 .f32) (v11 : FVec Ideal S3x4096 .f32) (r : Fin 1024) (q : Fin 4096) :
    subf
        (addf
          (broadcastTo S1024x4096 (shapeCast S1024x1
            (multiReduction (F := Ideal) .add [1] S1024 (mulf v9 v9) 0x00000000#32 reduces_S1024x3_S1024 (.inl rfl) rfl)
            shapeCasts_S1024_S1024x1) broadcasts_S1024x1_S1024x4096)
          (broadcastTo S1024x4096 (shapeCast S1x4096
            (multiReduction (F := Ideal) .add [0] S4096 (mulf v11 v11) 0x00000000#32 reduces_S3x4096_S4096 (.inl rfl) rfl)
            shapeCasts_S4096_S1x4096) broadcasts_S1x4096_S1024x4096))
        (mulf (broadcast S1024x4096 (Scalar.ofBits (F := Ideal) .f32 0x40000000#32))
          (matmul dot_S1024x3_S3x4096_S1024x4096_1_0_0_1_n_n none (truncf .bf16 v9 bitsLt_bf16_f32)
            (truncf .bf16 v11 bitsLt_bf16_f32) (constant (F := Ideal) S1024x4096 .f32 0x00000000#32)))
        (ix2 r q)
      = ((∑ d : Fin 3, v9 (ix2 r d) * v9 (ix2 r d)) + (∑ d : Fin 3, v11 (ix2 d q) * v11 (ix2 d q)))
        - Ideal.ofBits .f32 0x40000000#32 * (∑ d : Fin 3, v9 (ix2 r d) * v11 (ix2 d q)) := by
  have h1 := Cert.Keepdims.rowSumSq_bcast_apply (c := 4096) v9 reduces_S1024x3_S1024 (.inl rfl) rfl
    shapeCasts_S1024_S1024x1 broadcasts_S1024x1_S1024x4096 r q
  have h2 := colSumSq_row_bcast_apply (a := 1024) v11 reduces_S3x4096_S4096 (.inl rfl) rfl
    shapeCasts_S4096_S1x4096 broadcasts_S1x4096_S1024x4096 r q
  have h3 := matmul_blocks_apply v9 v11 r q
  exact congrArg₂ (· - ·) (congrArg₂ (· + ·) h1 h2) (congrArg (Ideal.ofBits .f32 0x40000000#32 * ·) h3)

/-- The tile of squared distances at `(r, q)`. -/
theorem pay7_apply (x0 : Vec Ideal S1x1024x3 .f32) (x1 : Vec Ideal S1x3x4096 .f32) (r : Fin 1024) (q : Fin 4096) :
    k0_pay7 (F := Ideal) x0 x1 (ix2 r q) = blockDist x0 x1 r q := by
  refine (tile_apply (shapeCast S1024x3 x0 shapeCasts_S1x1024x3_S1024x3)
    (shapeCast S3x4096 x1 shapeCasts_S1x3x4096_S3x4096) r q).trans ?_
  simp only [shapeCast_1ab_ab_apply]
  rfl

/-! ## The tile's minima -/

/-- The tile's minimum down the rows, as a row: at lane `q` the least squared distance of column `q` to the block's rows. -/
theorem pay8_apply (x0 : Vec Ideal S1x1024x3 .f32) (x1 : Vec Ideal S1x3x4096 .f32) (q : Fin 4096) :
    k0_pay8 (F := Ideal) x0 x1 (ix2 (0 : Fin 1) q)
      = (Finset.univ : Finset (Fin 1024)).fold min ⊤ (fun r => blockDist x0 x1 r q) := by
  unfold k0_pay8
  dsimp only
  refine (shapeCast_a_1a_apply _ shapeCasts_S4096_S1x4096 (0 : Fin 1) q).trans ?_
  refine (Cert.MinOps.rowsMin_apply (k0_pay7 (F := Ideal) x0 x1) _ reduces_S1024x4096_S4096 _ _ q).trans ?_
  rw [Cert.MinOps.posInf_eq_top]
  exact congrArg (fun f => (Finset.univ : Finset (Fin 1024)).fold min ⊤ f) (funext fun r => pay7_apply x0 x1 r q)

/-- The running column lowered by the tile's lane minima: at row `r` the smaller of the column's entry and the least
    squared distance of row `r` to the block's columns. -/
theorem pay9_apply (x0 : Vec Ideal S1x1024x3 .f32) (x1 : Vec Ideal S1x3x4096 .f32) (v31 : Vec Ideal S1024x1 .f32)
    (r : Fin 1024) :
    k0_pay9 (F := Ideal) x0 x1 v31 (ix2 r (0 : Fin 1))
      = min (v31 (ix2 r (0 : Fin 1))) ((Finset.univ : Finset (Fin 4096)).fold min ⊤ (fun q => blockDist x0 x1 r q)) := by
  unfold k0_pay9
  dsimp only
  rw [minimumf_apply]
  refine congrArg (min (v31 (ix2 r (0 : Fin 1)))) ?_
  refine (Cert.Keepdims.shapeCast_a_a1_apply _ shapeCasts_S1024_S1024x1 r (0 : Fin 1)).trans ?_
  refine (Cert.MinOps.laneMin_apply (k0_pay7 (F := Ideal) x0 x1) _ reduces_S1024x4096_S1024 _ _ r).trans ?_
  rw [Cert.MinOps.posInf_eq_top]
  exact congrArg (fun f => (Finset.univ : Finset (Fin 4096)).fold min ⊤ f) (funext fun q => pay7_apply x0 x1 r q)

/-! ## The other payloads -/

/-- The carried row lowered by the tile's row of minima, elementwise. -/
theorem pay2_apply (v30 : FVec Ideal S1x4096 .f32) (v39 : Vec Ideal S1x4096 .f32) (q : Fin 4096) :
    k0_pay2 (F := Ideal) v30 v39 (ix2 (0 : Fin 1) q) = min (v39 (ix2 (0 : Fin 1) q)) (v30 (ix2 (0 : Fin 1) q)) := by
  unfold k0_pay2
  rw [shapeCast_self]
  rfl

/-- A cast to the same shape changes nothing. -/
theorem pay1_eq {F : FTy → Type} [FloatOps F] (v : FVec F S1024x1 .f32) : k0_pay1 v = v := by
  unfold k0_pay1
  exact shapeCast_self _ _

/-- A column with a leading unit axis added reads the column. -/
theorem pay3_apply {F : FTy → Type} [FloatOps F] (v : Vec F S1024x1 .f32) (r : Fin 1024) :
    k0_pay3 v (ix3 (0 : Fin 1) r (0 : Fin 1)) = v (ix2 r (0 : Fin 1)) := by
  unfold k0_pay3
  exact shapeCast_ab_1ab_apply _ shapeCasts_S1024x1_S1x1024x1 (0 : Fin 1) r (0 : Fin 1)

/-- A row with a leading unit axis added reads the row. -/
theorem pay4_apply {F : FTy → Type} [FloatOps F] (v : Vec F S1x8192 .f32) (q : Fin 8192) :
    k0_pay4 v (ix3 (0 : Fin 1) (0 : Fin 1) q) = v (ix2 (0 : Fin 1) q) := by
  unfold k0_pay4
  exact shapeCast_ab_1ab_apply _ shapeCasts_S1x8192_S1x1x8192 (0 : Fin 1) (0 : Fin 1) q

/-- The column every entry of which is +∞, the greatest extended real. -/
theorem pay5_apply (r : Fin 1024) : k0_pay5 (F := Ideal) (ix2 r (0 : Fin 1)) = (⊤ : EReal) := by
  unfold k0_pay5
  rw [shapeCast_self]
  exact Cert.MinOps.posInf_eq_top

/-- The row every entry of which is +∞, the greatest extended real. -/
theorem pay6_apply (q : Fin 8192) : k0_pay6 (F := Ideal) (ix2 (0 : Fin 1) q) = (⊤ : EReal) := by
  unfold k0_pay6
  rw [shapeCast_self]
  exact Cert.MinOps.posInf_eq_top

end Cert.KernelIdeal.Pay

end
-- ==== Proof.LibMinBlocks.lean ====
/-
  A minimum over `n` positions taken block by block, in any linear order with a greatest element.

  The fold of `min` from the greatest element over a finite family is characterised by its lower bounds: `z` is below
  the fold exactly when `z` is below every member. A running minimum over consecutive blocks of `b` positions keeps that
  characterisation block after block: the lower bounds of the first `(n + 1) * b` positions are the lower bounds of the
  first `n * b` that are also lower bounds of block `n`. Two elements with the same lower bounds are equal, which is how a
  running minimum is identified with the minimum taken whole. Only the order is used: in the extended reals the
  statements hold at the infinities too.
-/
import Mathlib.Data.Finset.Fold
import Mathlib.Order.BoundedOrder.Basic
import Mathlib.Data.Fintype.Basic

namespace Cert.Lib.MinBlocks

/-- `z` is below the fold of `min` from the greatest element exactly when it is below every member of the family. -/
theorem le_fold_min_top {α ι : Type*} [LinearOrder α] [OrderTop α] (s : Finset ι) (f : ι → α) (z : α) :
    z ≤ s.fold min ⊤ f ↔ ∀ i ∈ s, z ≤ f i :=
  Iff.trans (Finset.le_fold_min z) ⟨fun h => h.2, fun h => ⟨le_top, h⟩⟩

/-- The same over a whole finite index type. -/
theorem le_fold_min_top_univ {α ι : Type*} [LinearOrder α] [OrderTop α] [Fintype ι] (f : ι → α) (z : α) :
    z ≤ (Finset.univ : Finset ι).fold min ⊤ f ↔ ∀ i, z ≤ f i :=
  (le_fold_min_top Finset.univ f z).trans ⟨fun h i => h i (Finset.mem_univ i), fun h i _ => h i⟩

/-- Two elements with the same lower bounds are equal. -/
theorem eq_of_lower_bounds {α : Type*} [PartialOrder α] {a b : α} (h : ∀ z, z ≤ a ↔ z ≤ b) : a = b :=
  le_antisymm ((h a).mp le_rfl) ((h b).mpr le_rfl)

/-- A property of the first `(n + 1) * b` of `N` positions: it holds of the first `n * b` and of each position `n * b + r`
    of block `n`. -/
theorem forall_lt_succ_block {N : ℕ} (P : Fin N → Prop) (n b : ℕ) (hN : (n + 1) * b ≤ N) :
    (∀ i : Fin N, i.val < (n + 1) * b → P i) ↔
      (∀ i : Fin N, i.val < n * b → P i) ∧
        ∀ r : Fin b, P ⟨n * b + r.val, lt_of_lt_of_le (by rw [Nat.succ_mul]; exact Nat.add_lt_add_left r.isLt _) hN⟩ := by
  have hs : (n + 1) * b = n * b + b := Nat.succ_mul n b
  constructor
  · intro h
    refine ⟨fun i hi => h i (by rw [hs]; exact Nat.lt_add_right _ hi), fun r => h _ ?_⟩
    show n * b + r.val < (n + 1) * b
    rw [hs]; exact Nat.add_lt_add_left r.isLt _
  · rintro ⟨h1, h2⟩ i hi
    by_cases hlt : i.val < n * b
    · exact h1 i hlt
    · have hge : n * b ≤ i.val := Nat.le_of_not_lt hlt
      have hr : i.val - n * b < b := by rw [hs] at hi; exact (Nat.sub_lt_iff_lt_add' hge).mpr hi
      have h3 := h2 ⟨i.val - n * b, hr⟩
      have e : (⟨n * b + (i.val - n * b), lt_of_lt_of_le (by rw [Nat.succ_mul]; exact Nat.add_lt_add_left hr _) hN⟩ : Fin N) = i :=
        Fin.ext (Nat.add_sub_cancel' hge)
      exact e ▸ h3

/-- Before any block nothing is asked. -/
theorem forall_lt_zero_block {N : ℕ} (P : Fin N → Prop) (b : ℕ) : ∀ i : Fin N, i.val < 0 * b → P i := by
  intro i hi; rw [Nat.zero_mul] at hi; exact absurd hi (Nat.not_lt_zero _)

/-- Once the blocks exhaust the positions the bound is no condition. -/
theorem forall_lt_all {N : ℕ} (P : Fin N → Prop) (n b : ℕ) (hN : N ≤ n * b) :
    (∀ i : Fin N, i.val < n * b → P i) ↔ ∀ i : Fin N, P i :=
  ⟨fun h i => h i (lt_of_lt_of_le i.isLt hN), fun h i _ => h i⟩

end Cert.Lib.MinBlocks
-- ==== Proof.LibMinStep.lean ====
/-
  One step of a minimum kept block by block, in any linear order with a greatest element.

  Suppose the lower bounds of `old` are the lower bounds of the first `k` blocks of `B` positions of a family `f` of `N`
  members, and `g` lists block `k`. Then the lower bounds of `min old (the minimum of g)` are the lower bounds of the first
  `k + 1` blocks. With `old` the greatest element and `k = 0` this starts the chain; after the last block the bound
  exhausts the family and the running value is the minimum taken whole. Only the order is used.
-/
import Mathlib.Data.Finset.Fold
import Mathlib.Order.BoundedOrder.Basic
import Mathlib.Data.Fintype.Basic
import proofs.«162795_j26628797235307_2_alg».proof.Proof.LibMinBlocks

namespace Cert.Lib.MinStep

open Cert.Lib.MinBlocks

/-- A running minimum lowered by block `k`'s minimum: its lower bounds are those of the first `k + 1` blocks. -/
theorem min_block_step {α : Type*} [LinearOrder α] [OrderTop α] {N B : ℕ} (k : ℕ) (hk : (k + 1) * B ≤ N) (old : α)
    (f : Fin N → α) (g : Fin B → α) (hold : ∀ z, z ≤ old ↔ ∀ j : Fin N, j.val < k * B → z ≤ f j)
    (hg : ∀ (q : Fin B) (j : Fin N), j.val = k * B + q.val → g q = f j) (z : α) :
    z ≤ min old ((Finset.univ : Finset (Fin B)).fold min ⊤ g) ↔ ∀ j : Fin N, j.val < (k + 1) * B → z ≤ f j := by
  rw [le_min_iff, hold z, le_fold_min_top_univ, forall_lt_succ_block (fun j => z ≤ f j) k B hk]
  refine and_congr_right fun _ => forall_congr' fun q => ?_
  rw [hg q ⟨k * B + q.val, lt_of_lt_of_le (by rw [Nat.succ_mul]; exact Nat.add_lt_add_left q.isLt _) hk⟩ rfl]

/-- The greatest element is bounded below by everything, as nothing is asked before the first block. -/
theorem top_bounds {α : Type*} [LinearOrder α] [OrderTop α] {N : ℕ} (B : ℕ) (f : Fin N → α) (z : α) :
    z ≤ (⊤ : α) ↔ ∀ j : Fin N, j.val < 0 * B → z ≤ f j :=
  ⟨fun _ => forall_lt_zero_block (fun j => z ≤ f j) B, fun _ => le_top⟩

/-- Once the blocks exhaust the family, an element with those lower bounds is the minimum taken whole. -/
theorem eq_fold_of_bounds {α : Type*} [LinearOrder α] [OrderTop α] {N : ℕ} (k B : ℕ) (hN : N ≤ k * B) (a : α) (f : Fin N → α)
    (h : ∀ z, z ≤ a ↔ ∀ j : Fin N, j.val < k * B → z ≤ f j) : a = (Finset.univ : Finset (Fin N)).fold min ⊤ f :=
  eq_of_lower_bounds fun z => (h z).trans ((forall_lt_all (fun j => z ≤ f j) k B hN).trans (le_fold_min_top_univ f z).symm)

end Cert.Lib.MinStep
-- ==== Proof.Running.lean ====
/-
  The two running minima after every grid point, and what the two outputs are given.

  Number the grid points t = 16·b + 2·qi + ki. After point t the running column holds, for each of the 1024 rows of the
  block held, the minimum of the squared distances to the first (ki + 1)·4096 points of the second cloud; the running row
  holds, for each of the 8192 points of the second cloud, the minimum of the squared distances to the first rows of the
  first cloud: (qi + 1)·1024 of them for a column whose segment has been met in this sweep, qi·1024 otherwise. Both are
  stated by lower bounds (z is below the entry exactly when z is below every distance in the range), which is what a
  minimum taken block after block keeps, and proved by induction on t through the four cases. At the points where an
  output is given (ki last; qi and ki last) the range is everything, so the entry is the minimum taken whole.
-/
import proofs.«162795_j26628797235307_2_alg».proof.Proof.Cases
import proofs.«162795_j26628797235307_2_alg».proof.Proof.Blocks
import proofs.«162795_j26628797235307_2_alg».proof.Proof.Payload
import proofs.«162795_j26628797235307_2_alg».proof.Proof.Spec
import proofs.«162795_j26628797235307_2_alg».proof.Proof.LibMinBlocks
import proofs.«162795_j26628797235307_2_alg».proof.Proof.LibMinStep

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen

variable (m : (ℓ : Loc nD τ sig) → Buf (Elt Ideal) ℓ) (c : Dev nD)

/-- The two clouds as the program is launched with them. -/
abbrev X0 : Cert.Chamfer.Cloud.Idx → EReal := m ((c : Thread nD τ).loc main_arg0)
abbrev X1 : Cert.Chamfer.Cloud.Idx → EReal := m ((c : Thread nD τ).loc main_arg1)

/-- The squared distance the statement speaks of, over the launch contents. -/
abbrev D (b : Fin 4) (n j : Fin 8192) : EReal := Cert.Chamfer.dist (X0 m c) (X1 m c) b n j

/-! ## A tile's entries are the statement's distances -/

/-- Entry (r, q) of point t's tile is the distance of row 1024·qi + r of the first cloud to point 4096·ki + q of the second. -/
theorem tile_eq (t : Fin cfg0.N) (r : Fin 1024) (q : Fin 4096) (b : Fin 4) (n j : Fin 8192)
    (hb : b.val = t.val / 16) (hn : n.val = 1024 * (t.val % 16 / 2) + r.val) (hj : j.val = 4096 * (t.val % 2) + q.val) :
    Pay.blockDist (iblk m c 0 t) (iblk m c 1 t) r q = D m c b n j := by
  unfold Pay.blockDist D Cert.Chamfer.dist
  have e0 : ∀ d : Fin 3, (iblk m c 0 t : Vec Ideal S1x1024x3 .f32) (ix3 (0 : Fin 1) r d) = X0 m c (ix3 b n d) :=
    fun d => Blocks.iblk0_apply m c t r d b n hb hn
  have e1 : ∀ d : Fin 3, (iblk m c 1 t : Vec Ideal S1x3x4096 .f32) (ix3 (0 : Fin 1) d q) = X1 m c (ix3 b j d) :=
    fun d => Blocks.iblk1_apply m c t d q b j hb hj
  simp only [e0, e1]

/-- The running row read through the point's segment: entry q of the segment is entry 4096·ki + q of the row. -/
theorem seg_read (i : grid0.Coords) (X : S1x8192.Idx → Elt Ideal .f32) (k : ℕ) (hk : (i 2).val = k) (q : Fin 4096)
    (col : Fin 8192) (hcol : col.val = 4096 * k + q.val) :
    View.ld X (Rect.unit (s := S1x8192) (k0_off1 i) S1x4096.size (k0_off1_inb i)) (ix2 (0 : Fin 1) q) = X (ix2 (0 : Fin 1) col) := by
  subst hk
  show X ((Rect.unit (s := S1x8192) (k0_off1 i) S1x4096.size (k0_off1_inb i)).idx (ix2 (0 : Fin 1) q)) = _
  congr 1
  funext a
  apply Fin.ext
  match a with
  | ⟨0, _⟩ => show k0_off1 i 0 + 1 * 0 = 0; rw [k0_off1_eq]; rfl
  | ⟨1, _⟩ => show k0_off1 i 1 + 1 * q.val = col.val; rw [k0_off1_eq, hcol]; show 4096 * (i 2).val + 1 * q.val = _; omega

/-! ## One step of each running minimum -/

/-- The column after point t, from a column whose lower bounds are those of the first k = ki segments. -/
theorem col_step (t : Fin cfg0.N) (old : Vec Ideal S1024x1 .f32) (k : ℕ) (hk : k = t.val % 2)
    (hold : ∀ (b : Fin 4) (r : Fin 1024) (nn : Fin 8192), b.val = t.val / 16 → nn.val = 1024 * (t.val % 16 / 2) + r.val →
      ∀ z : EReal, z ≤ old (ix2 r (0 : Fin 1)) ↔ ∀ j : Fin 8192, j.val < k * 4096 → z ≤ D m c b nn j)
    (b : Fin 4) (r : Fin 1024) (nn : Fin 8192) (hb : b.val = t.val / 16) (hn : nn.val = 1024 * (t.val % 16 / 2) + r.val) (z : EReal) :
    z ≤ k0_pay1 (k0_pay9 (F := Ideal) (iblk m c 0 t) (iblk m c 1 t) old) (ix2 r (0 : Fin 1))
      ↔ ∀ j : Fin 8192, j.val < (t.val % 2 + 1) * 4096 → z ≤ D m c b nn j := by
  subst hk
  rw [Pay.pay1_eq, Pay.pay9_apply]
  exact Cert.Lib.MinStep.min_block_step (t.val % 2) (by omega) _ (fun j => D m c b nn j) _ (hold b r nn hb hn)
    (fun q j hj => tile_eq m c t r q b nn j hb hn (by omega)) z

/-- How many rows of the first cloud the running row's entry for column col has met after point n, in blocks of 1024. -/
def rowsSeen (n col : ℕ) : ℕ := n % 16 / 2 + (if col / 4096 ≤ n % 2 then 1 else 0)

/-- The row's entry for a column of the point's segment, from an entry whose lower bounds are those of the first qi blocks. -/
theorem row_hit_step (t : Fin cfg0.N) (oldv : EReal) (b : Fin 4) (col : Fin 8192) (q : Fin 4096) (hb : b.val = t.val / 16)
    (hcol : col.val = 4096 * (t.val % 2) + q.val)
    (hold : ∀ z : EReal, z ≤ oldv ↔ ∀ i : Fin 8192, i.val < (t.val % 16 / 2) * 1024 → z ≤ D m c b i col) (z : EReal) :
    z ≤ min oldv ((Finset.univ : Finset (Fin 1024)).fold min ⊤ (fun r => Pay.blockDist (iblk m c 0 t) (iblk m c 1 t) r q))
      ↔ ∀ i : Fin 8192, i.val < rowsSeen t.val col.val * 1024 → z ≤ D m c b i col := by
  have hq := q.isLt
  have e : rowsSeen t.val col.val = t.val % 16 / 2 + 1 := by
    unfold rowsSeen; rw [if_pos (by omega)]
  rw [e]
  exact Cert.Lib.MinStep.min_block_step (t.val % 16 / 2) (by omega) oldv (fun i => D m c b i col) _ hold
    (fun r i hi => tile_eq m c t r q b i col hb (by omega) hcol) z

/-! ## The two statements -/

/-- After point n the running column's entry for row r has exactly the lower bounds of the distances of row 1024·qi + r to
    the first (ki + 1)·4096 points of the second cloud. -/
def ColInv (n : ℕ) (h : n < cfg0.N) : Prop :=
  ∀ (b : Fin 4) (r : Fin 1024) (nn : Fin 8192), b.val = n / 16 → nn.val = 1024 * (n % 16 / 2) + r.val → ∀ z : EReal,
    z ≤ (outsAt0 m c n h).2.2.1 (ix2 r (0 : Fin 1)) ↔ ∀ j : Fin 8192, j.val < (n % 2 + 1) * 4096 → z ≤ D m c b nn j

/-- After point n the running row's entry for column col has exactly the lower bounds of the distances of col to the rows
    it has met. -/
def RowInv (n : ℕ) (h : n < cfg0.N) : Prop :=
  ∀ (b : Fin 4) (col : Fin 8192), b.val = n / 16 → ∀ z : EReal,
    z ≤ (outsAt0 m c n h).2.2.2 (ix2 (0 : Fin 1) col) ↔ ∀ i : Fin 8192, i.val < rowsSeen n col.val * 1024 → z ≤ D m c b i col

/-! ## The four cases -/

set_option maxHeartbeats 800000 in
/-- The two statements after a point of case A. -/
theorem inv_A (t : Fin cfg0.N) (h0 : t.val % 2 = 0) (h1 : t.val % 16 = 0) :
    ColInv m c t.val t.isLt ∧ RowInv m c t.val t.isLt := by
  have hN : t.val < 64 := lt_of_lt_of_eq t.isLt (show cfg0.N = 64 from N_0)
  have h2 : ¬t.val % 2 = 1 := by omega
  have h3 : ¬t.val % 16 = 15 := by omega
  have hc2 : (grid0.coords t 2).val = t.val % 2 := Blocks.coord2 t
  have kcol := Cases.col_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  have hcolumn : (outsAt0 m c t.val t.isLt).2.2.1
      = k0_pay1 (k0_pay9 (F := Ideal) (iblk m c 0 t) (iblk m c 1 t) (k0_pay5 (F := Ideal))) := by
    rw [outsAt0_A m c t h0 h1 h2 h3]
    dsimp only
    exact kcol
  constructor
  · intro b r nn hb hn z
    rw [hcolumn]
    exact col_step m c t _ 0 (by omega) (fun b r nn _ _ z => by rw [Pay.pay5_apply]; exact Cert.Lib.MinStep.top_bounds 4096 _ z) b r nn hb hn z
  · intro b col hb z
    have hcl := col.isLt
    by_cases hseg : 4096 * (t.val % 2) ≤ col.val ∧ col.val < 4096 * (t.val % 2) + 4096
    · obtain ⟨q, hq⟩ : ∃ q : Fin 4096, q.val = col.val - 4096 * (t.val % 2) := ⟨⟨col.val - 4096 * (t.val % 2), by omega⟩, rfl⟩
      have hcolq : col.val = 4096 * (t.val % 2) + q.val := by omega
      have key := Cases.row_A_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (t.val % 2) hc2 q col hcolq
      have hrow : (outsAt0 m c t.val t.isLt).2.2.2 (ix2 (0 : Fin 1) col)
          = min ((⊤ : EReal))
              ((Finset.univ : Finset (Fin 1024)).fold min ⊤ (fun r => Pay.blockDist (iblk m c 0 t) (iblk m c 1 t) r q)) := by
        rw [outsAt0_A m c t h0 h1 h2 h3]
        dsimp only
        refine key.trans ?_
        rw [Pay.pay2_apply, seg_read (grid0.coords t) (k0_pay6 (F := Ideal)) (t.val % 2) hc2 q col hcolq, Pay.pay6_apply, Pay.pay8_apply]
      rw [hrow]
      exact row_hit_step m c t ((⊤ : EReal)) b col q hb hcolq (fun z => by
          have e : t.val % 16 / 2 = 0 := by omega
          rw [e]; exact Cert.Lib.MinStep.top_bounds 1024 _ z) z
    · have key := Cases.row_A_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (t.val % 2) hc2 col (by omega)
      have hrow : (outsAt0 m c t.val t.isLt).2.2.2 (ix2 (0 : Fin 1) col) = k0_pay6 (F := Ideal) (ix2 (0 : Fin 1) col) := by
        rw [outsAt0_A m c t h0 h1 h2 h3]
        dsimp only
        exact key
      rw [hrow, Pay.pay6_apply]
      have e : rowsSeen t.val col.val = 0 := by
        unfold rowsSeen; split_ifs <;> omega
      rw [e]; exact Cert.Lib.MinStep.top_bounds 1024 _ z

set_option maxHeartbeats 800000 in
/-- The two statements after a point of case C, from those after the point before. -/
theorem inv_C (t : Fin cfg0.N) (h0 : t.val % 2 = 0) (h1 : ¬t.val % 16 = 0)
    (ihr : RowInv m c (t.val - 1) (Nat.lt_of_le_of_lt (Nat.sub_le _ _) t.isLt)) :
    ColInv m c t.val t.isLt ∧ RowInv m c t.val t.isLt := by
  have hN : t.val < 64 := lt_of_lt_of_eq t.isLt (show cfg0.N = 64 from N_0)
  have h2 : ¬t.val % 2 = 1 := by omega
  have h3 : ¬t.val % 16 = 15 := by omega
  have hc2 : (grid0.coords t 2).val = t.val % 2 := Blocks.coord2 t
  have kcol := Cases.col_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
  have hcolumn : (outsAt0 m c t.val t.isLt).2.2.1
      = k0_pay1 (k0_pay9 (F := Ideal) (iblk m c 0 t) (iblk m c 1 t) (k0_pay5 (F := Ideal))) := by
    rw [outsAt0_C m c t h0 h1 h2 h3]
    dsimp only
    exact kcol
  constructor
  · intro b r nn hb hn z
    rw [hcolumn]
    exact col_step m c t _ 0 (by omega) (fun b r nn _ _ z => by rw [Pay.pay5_apply]; exact Cert.Lib.MinStep.top_bounds 4096 _ z) b r nn hb hn z
  · intro b col hb z
    have hcl := col.isLt
    by_cases hseg : 4096 * (t.val % 2) ≤ col.val ∧ col.val < 4096 * (t.val % 2) + 4096
    · obtain ⟨q, hq⟩ : ∃ q : Fin 4096, q.val = col.val - 4096 * (t.val % 2) := ⟨⟨col.val - 4096 * (t.val % 2), by omega⟩, rfl⟩
      have hcolq : col.val = 4096 * (t.val % 2) + q.val := by omega
      have key := Cases.row_C_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (t.val % 2) hc2 q col hcolq
      have hrow : (outsAt0 m c t.val t.isLt).2.2.2 (ix2 (0 : Fin 1) col)
          = min ((outsAt0 m c (t.val - 1) (Nat.lt_of_le_of_lt (Nat.sub_le _ _) t.isLt)).2.2.2 (ix2 (0 : Fin 1) col))
              ((Finset.univ : Finset (Fin 1024)).fold min ⊤ (fun r => Pay.blockDist (iblk m c 0 t) (iblk m c 1 t) r q)) := by
        rw [outsAt0_C m c t h0 h1 h2 h3]
        dsimp only
        refine key.trans ?_
        rw [Pay.pay2_apply, seg_read (grid0.coords t) (outsAt0 m c (t.val - 1) (Nat.lt_of_le_of_lt (Nat.sub_le _ _) t.isLt)).2.2.2 (t.val % 2) hc2 q col hcolq, Pay.pay8_apply]
      rw [hrow]
      exact row_hit_step m c t ((outsAt0 m c (t.val - 1) (Nat.lt_of_le_of_lt (Nat.sub_le _ _) t.isLt)).2.2.2 (ix2 (0 : Fin 1) col)) b col q hb hcolq (fun z => by
          have h := ihr b col (by omega) z
          have e : rowsSeen (t.val - 1) col.val = t.val % 16 / 2 := by
            unfold rowsSeen; split_ifs <;> omega
          rwa [e] at h) z
    · have key := Cases.row_C_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (t.val % 2) hc2 col (by omega)
      have hrow : (outsAt0 m c t.val t.isLt).2.2.2 (ix2 (0 : Fin 1) col) = (outsAt0 m c (t.val - 1) (Nat.lt_of_le_of_lt (Nat.sub_le _ _) t.isLt)).2.2.2 (ix2 (0 : Fin 1) col) := by
        rw [outsAt0_C m c t h0 h1 h2 h3]
        dsimp only
        exact key
      rw [hrow]
      have h := ihr b col (by omega) z
      have e : rowsSeen (t.val - 1) col.val = rowsSeen t.val col.val := by
        unfold rowsSeen; split_ifs <;> omega
      rwa [e] at h

set_option maxHeartbeats 800000 in
/-- The two statements after a point of case B, from those after the point before. -/
theorem inv_B (t : Fin cfg0.N) (h0 : ¬t.val % 2 = 0) (h3 : ¬t.val % 16 = 15)
    (ihc : ColInv m c (t.val - 1) (Nat.lt_of_le_of_lt (Nat.sub_le _ _) t.isLt))
    (ihr : RowInv m c (t.val - 1) (Nat.lt_of_le_of_lt (Nat.sub_le _ _) t.isLt)) :
    ColInv m c t.val t.isLt ∧ RowInv m c t.val t.isLt := by
  have hN : t.val < 64 := lt_of_lt_of_eq t.isLt (show cfg0.N = 64 from N_0)
  have h1 : ¬t.val % 16 = 0 := by omega
  have h2 : t.val % 2 = 1 := by omega
  have hc2 : (grid0.coords t 2).val = t.val % 2 := Blocks.coord2 t
  have kcol := Cases.col_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  have hcolumn : (outsAt0 m c t.val t.isLt).2.2.1
      = k0_pay1 (k0_pay9 (F := Ideal) (iblk m c 0 t) (iblk m c 1 t) (outsAt0 m c (t.val - 1) (Nat.lt_of_le_of_lt (Nat.sub_le _ _) t.isLt)).2.2.1) := by
    rw [outsAt0_B m c t h0 h1 h2 h3]
    dsimp only
    exact kcol
  constructor
  · intro b r nn hb hn z
    rw [hcolumn]
    exact col_step m c t _ (t.val % 2) rfl (fun b r nn hb' hn' z => by
        have h := ihc b r nn (by omega) (by omega) z
        have e : ((t.val - 1) % 2 + 1) * 4096 = t.val % 2 * 4096 := by omega
        rwa [e] at h) b r nn hb hn z
  · intro b col hb z
    have hcl := col.isLt
    by_cases hseg : 4096 * (t.val % 2) ≤ col.val ∧ col.val < 4096 * (t.val % 2) + 4096
    · obtain ⟨q, hq⟩ : ∃ q : Fin 4096, q.val = col.val - 4096 * (t.val % 2) := ⟨⟨col.val - 4096 * (t.val % 2), by omega⟩, rfl⟩
      have hcolq : col.val = 4096 * (t.val % 2) + q.val := by omega
      have key := Cases.row_B_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (t.val % 2) hc2 q col hcolq
      have hrow : (outsAt0 m c t.val t.isLt).2.2.2 (ix2 (0 : Fin 1) col)
          = min ((outsAt0 m c (t.val - 1) (Nat.lt_of_le_of_lt (Nat.sub_le _ _) t.isLt)).2.2.2 (ix2 (0 : Fin 1) col))
              ((Finset.univ : Finset (Fin 1024)).fold min ⊤ (fun r => Pay.blockDist (iblk m c 0 t) (iblk m c 1 t) r q)) := by
        rw [outsAt0_B m c t h0 h1 h2 h3]
        dsimp only
        refine key.trans ?_
        rw [Pay.pay2_apply, seg_read (grid0.coords t) (outsAt0 m c (t.val - 1) (Nat.lt_of_le_of_lt (Nat.sub_le _ _) t.isLt)).2.2.2 (t.val % 2) hc2 q col hcolq, Pay.pay8_apply]
      rw [hrow]
      exact row_hit_step m c t ((outsAt0 m c (t.val - 1) (Nat.lt_of_le_of_lt (Nat.sub_le _ _) t.isLt)).2.2.2 (ix2 (0 : Fin 1) col)) b col q hb hcolq (fun z => by
          have h := ihr b col (by omega) z
          have e : rowsSeen (t.val - 1) col.val = t.val % 16 / 2 := by
            unfold rowsSeen; split_ifs <;> omega
          rwa [e] at h) z
    · have key := Cases.row_B_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (t.val % 2) hc2 col (by omega)
      have hrow : (outsAt0 m c t.val t.isLt).2.2.2 (ix2 (0 : Fin 1) col) = (outsAt0 m c (t.val - 1) (Nat.lt_of_le_of_lt (Nat.sub_le _ _) t.isLt)).2.2.2 (ix2 (0 : Fin 1) col) := by
        rw [outsAt0_B m c t h0 h1 h2 h3]
        dsimp only
        exact key
      rw [hrow]
      have h := ihr b col (by omega) z
      have e : rowsSeen (t.val - 1) col.val = rowsSeen t.val col.val := by
        unfold rowsSeen; split_ifs <;> omega
      rwa [e] at h

set_option maxHeartbeats 800000 in
/-- The two statements after a point of case D, from those after the point before. -/
theorem inv_D (t : Fin cfg0.N) (h0 : ¬t.val % 2 = 0) (h3 : t.val % 16 = 15)
    (ihc : ColInv m c (t.val - 1) (Nat.lt_of_le_of_lt (Nat.sub_le _ _) t.isLt))
    (ihr : RowInv m c (t.val - 1) (Nat.lt_of_le_of_lt (Nat.sub_le _ _) t.isLt)) :
    ColInv m c t.val t.isLt ∧ RowInv m c t.val t.isLt := by
  have hN : t.val < 64 := lt_of_lt_of_eq t.isLt (show cfg0.N = 64 from N_0)
  have h1 : ¬t.val % 16 = 0 := by omega
  have h2 : t.val % 2 = 1 := by omega
  have hc2 : (grid0.coords t 2).val = t.val % 2 := Blocks.coord2 t
  have kcol := Cases.col_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  have hcolumn : (outsAt0 m c t.val t.isLt).2.2.1
      = k0_pay1 (k0_pay9 (F := Ideal) (iblk m c 0 t) (iblk m c 1 t) (outsAt0 m c (t.val - 1) (Nat.lt_of_le_of_lt (Nat.sub_le _ _) t.isLt)).2.2.1) := by
    rw [outsAt0_D m c t h0 h1 h2 h3]
    dsimp only
    exact kcol
  constructor
  · intro b r nn hb hn z
    rw [hcolumn]
    exact col_step m c t _ (t.val % 2) rfl (fun b r nn hb' hn' z => by
        have h := ihc b r nn (by omega) (by omega) z
        have e : ((t.val - 1) % 2 + 1) * 4096 = t.val % 2 * 4096 := by omega
        rwa [e] at h) b r nn hb hn z
  · intro b col hb z
    have hcl := col.isLt
    by_cases hseg : 4096 * (t.val % 2) ≤ col.val ∧ col.val < 4096 * (t.val % 2) + 4096
    · obtain ⟨q, hq⟩ : ∃ q : Fin 4096, q.val = col.val - 4096 * (t.val % 2) := ⟨⟨col.val - 4096 * (t.val % 2), by omega⟩, rfl⟩
      have hcolq : col.val = 4096 * (t.val % 2) + q.val := by omega
      have key := Cases.row_D_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (t.val % 2) hc2 q col hcolq
      have hrow : (outsAt0 m c t.val t.isLt).2.2.2 (ix2 (0 : Fin 1) col)
          = min ((outsAt0 m c (t.val - 1) (Nat.lt_of_le_of_lt (Nat.sub_le _ _) t.isLt)).2.2.2 (ix2 (0 : Fin 1) col))
              ((Finset.univ : Finset (Fin 1024)).fold min ⊤ (fun r => Pay.blockDist (iblk m c 0 t) (iblk m c 1 t) r q)) := by
        rw [outsAt0_D m c t h0 h1 h2 h3]
        dsimp only
        refine key.trans ?_
        rw [Pay.pay2_apply, seg_read (grid0.coords t) (outsAt0 m c (t.val - 1) (Nat.lt_of_le_of_lt (Nat.sub_le _ _) t.isLt)).2.2.2 (t.val % 2) hc2 q col hcolq, Pay.pay8_apply]
      rw [hrow]
      exact row_hit_step m c t ((outsAt0 m c (t.val - 1) (Nat.lt_of_le_of_lt (Nat.sub_le _ _) t.isLt)).2.2.2 (ix2 (0 : Fin 1) col)) b col q hb hcolq (fun z => by
          have h := ihr b col (by omega) z
          have e : rowsSeen (t.val - 1) col.val = t.val % 16 / 2 := by
            unfold rowsSeen; split_ifs <;> omega
          rwa [e] at h) z
    · have key := Cases.row_D_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (t.val % 2) hc2 col (by omega)
      have hrow : (outsAt0 m c t.val t.isLt).2.2.2 (ix2 (0 : Fin 1) col) = (outsAt0 m c (t.val - 1) (Nat.lt_of_le_of_lt (Nat.sub_le _ _) t.isLt)).2.2.2 (ix2 (0 : Fin 1) col) := by
        rw [outsAt0_D m c t h0 h1 h2 h3]
        dsimp only
        exact key
      rw [hrow]
      have h := ihr b col (by omega) z
      have e : rowsSeen (t.val - 1) col.val = rowsSeen t.val col.val := by
        unfold rowsSeen; split_ifs <;> omega
      rwa [e] at h

/-! ## Every point -/

/-- Both statements hold after every grid point: by induction on the point, the case read off its number. -/
theorem inv : ∀ (n : ℕ) (h : n < cfg0.N), ColInv m c n h ∧ RowInv m c n h
  | 0, h => inv_A m c ⟨0, h⟩ rfl rfl
  | n + 1, h => by
    have ih := inv n (Nat.lt_of_succ_lt h)
    by_cases h0 : (n + 1) % 2 = 0
    · by_cases h1 : (n + 1) % 16 = 0
      · exact inv_A m c ⟨n + 1, h⟩ h0 h1
      · exact inv_C m c ⟨n + 1, h⟩ h0 h1 ih.2
    · by_cases h3 : (n + 1) % 16 = 15
      · exact inv_D m c ⟨n + 1, h⟩ h0 h3 ih.1 ih.2
      · exact inv_B m c ⟨n + 1, h⟩ h0 h3 ih.1 ih.2

/-! ## What the outputs are given -/

set_option maxHeartbeats 800000 in
/-- Where the first output is given (ki last), its block's entry for row r is the whole minimum over the second cloud. -/
theorem out2_val (t : Fin cfg0.N) (ht : t.val % 2 = 1) (r : Fin 1024) (b : Fin 4) (n : Fin 8192)
    (hb : b.val = t.val / 16) (hn : n.val = 1024 * (t.val % 16 / 2) + r.val) :
    (outsAt0 m c t.val t.isLt).1 (ix3 (0 : Fin 1) r (0 : Fin 1)) = Cert.Chamfer.toSecond (X0 m c) (X1 m c) b n := by
  have hout : (outsAt0 m c t.val t.isLt).1 (ix3 (0 : Fin 1) r (0 : Fin 1))
      = (outsAt0 m c t.val t.isLt).2.2.1 (ix2 r (0 : Fin 1)) := by
    by_cases h3 : t.val % 16 = 15
    · have h0 : ¬t.val % 2 = 0 := by omega
      have h1 : ¬t.val % 16 = 0 := by omega
      have h2 : t.val % 2 = 1 := ht
      have k1 := Cases.out2_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      have k2 := Cases.col_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      have e1 : (outsAt0 m c t.val t.isLt).1
          = k0_pay3 (k0_pay1 (k0_pay9 (F := Ideal) (iblk m c 0 t) (iblk m c 1 t) (outsAt0 m c (t.val - 1) (Nat.lt_of_le_of_lt (Nat.sub_le _ _) t.isLt)).2.2.1)) := by
        rw [outsAt0_D m c t h0 h1 h2 h3]
        dsimp only
        exact k1
      have e2 : (outsAt0 m c t.val t.isLt).2.2.1
          = k0_pay1 (k0_pay9 (F := Ideal) (iblk m c 0 t) (iblk m c 1 t) (outsAt0 m c (t.val - 1) (Nat.lt_of_le_of_lt (Nat.sub_le _ _) t.isLt)).2.2.1) := by
        rw [outsAt0_D m c t h0 h1 h2 h3]
        dsimp only
        exact k2
      rw [e1, e2, Pay.pay3_apply]
    · have h0 : ¬t.val % 2 = 0 := by omega
      have h1 : ¬t.val % 16 = 0 := by omega
      have h2 : t.val % 2 = 1 := ht
      have k1 := Cases.out2_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      have k2 := Cases.col_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      have e1 : (outsAt0 m c t.val t.isLt).1
          = k0_pay3 (k0_pay1 (k0_pay9 (F := Ideal) (iblk m c 0 t) (iblk m c 1 t) (outsAt0 m c (t.val - 1) (Nat.lt_of_le_of_lt (Nat.sub_le _ _) t.isLt)).2.2.1)) := by
        rw [outsAt0_B m c t h0 h1 h2 h3]
        dsimp only
        exact k1
      have e2 : (outsAt0 m c t.val t.isLt).2.2.1
          = k0_pay1 (k0_pay9 (F := Ideal) (iblk m c 0 t) (iblk m c 1 t) (outsAt0 m c (t.val - 1) (Nat.lt_of_le_of_lt (Nat.sub_le _ _) t.isLt)).2.2.1) := by
        rw [outsAt0_B m c t h0 h1 h2 h3]
        dsimp only
        exact k2
      rw [e1, e2, Pay.pay3_apply]
  rw [hout]
  exact Cert.Lib.MinStep.eq_fold_of_bounds 2 4096 (by decide) _ (fun j => D m c b n j) (fun z => by
    have h := (inv m c t.val t.isLt).1 b r n hb hn z
    have e : t.val % 2 + 1 = 2 := by omega
    rwa [e] at h)

set_option maxHeartbeats 800000 in
/-- Where the second output is given (the last point of a batch), its entry for column col is the whole minimum over the
    first cloud. -/
theorem out3_val (t : Fin cfg0.N) (ht : t.val % 16 = 15) (col : Fin 8192) (b : Fin 4) (hb : b.val = t.val / 16) :
    (outsAt0 m c t.val t.isLt).2.1 (ix3 (0 : Fin 1) (0 : Fin 1) col) = Cert.Chamfer.toFirst (X0 m c) (X1 m c) b col := by
  have h0 : ¬t.val % 2 = 0 := by omega
  have h1 : ¬t.val % 16 = 0 := by omega
  have h2 : t.val % 2 = 1 := by omega
  have h3 : t.val % 16 = 15 := ht
  have hcl := col.isLt
  have k1 := Cases.out3_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  have e1 : (outsAt0 m c t.val t.isLt).2.1 = k0_pay4 (outsAt0 m c t.val t.isLt).2.2.2 := by
    rw [outsAt0_D m c t h0 h1 h2 h3]
    dsimp only
    exact k1
  rw [e1, Pay.pay4_apply]
  exact Cert.Lib.MinStep.eq_fold_of_bounds 8 1024 (by decide) _ (fun i => D m c b i col) (fun z => by
    have h := (inv m c t.val t.isLt).2 b col hb z
    have e : rowsSeen t.val col.val = 8 := by
      unfold rowsSeen; split_ifs <;> omega
    rwa [e] at h)

end Cert.KernelIdeal.Running

end
-- ==== Proof.LibMidUnit.lean ====
/-
  A unit axis in the middle of a rank-3 array dropped by a shape cast, read at an index written by its coordinates. A
  general fact about the shapes [a, 1, b] and [a, b]: nothing here mentions a program.
-/
import Idealize.ShloMosaic.Lib.ValueLayout

noncomputable section

namespace Cert.Lib.MidUnit

open Idealize.ShloMosaic Idealize.ShloMosaic.ValueIdx

variable {α : Type}

/-- An `[a, 1, b]` array cast to `[a, b]` reads, at `(i, j)`, the operand at `(i, 0, j)`: both sit at row-major
    position `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.MidUnit

end
-- ==== Proof.Result.lean ====
/-
  From the values at each grid point to the kernel program's result.

  The first output is given block by block at the points that end a sweep over the second cloud: the block given at
  point t = 16·b + 2·qi + 1 holds, for each of its 1024 rows, the least squared distance of point 1024·qi + r of the
  first cloud to the second cloud in batch b. Those blocks tile the output, so after the run it holds, at (b, n, 0), the
  least squared distance of point n of the first cloud to the second cloud. The second output is given one whole batch
  row at a time, at the last point t = 16·b + 15 of each batch, and after the run holds, at (b, 0, j), the least squared
  distance of point j of the second cloud to the first cloud. The operations after the kernel drop the two unit axes and
  take the chain of means over the two tables; the two clouds are left as launched.
-/
import proofs.«162795_j26628797235307_2_alg».proof.Proof.Running
import proofs.«162795_j26628797235307_2_alg».proof.Proof.Blocks
import proofs.«162795_j26628797235307_2_alg».proof.Proof.Spec
import proofs.«162795_j26628797235307_2_alg».proof.Proof.LibMidUnit
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The first output: each point of the first cloud to its nearest point of the second -/

/-- What the first output's block holds where it is given, entry by entry: row `y 1` of the block given at point `t` is
    point `1024·(t mod 16 / 2) + y 1` of the first cloud in batch `t / 16`. -/
theorem out2_block_apply (c : Dev nD) (t : Fin cfg0.N) (ht : t.val % 2 = 1) (y : S1x1024x1.Idx) (b : Fin 4) (n : Fin 8192)
    (hb : b.val = t.val / 16) (hn : n.val = 1024 * (t.val % 16 / 2) + (y 1).val) :
    (outsAt0 m c t.val t.isLt).1 y = Cert.Chamfer.toSecond (Running.X0 m c) (Running.X1 m c) b n := by
  obtain ⟨u, r, v, rfl⟩ : ∃ (u : Fin 1) (r : Fin 1024) (v : Fin 1), y = ix3 u r v := ⟨y 0, y 1, y 2, eq_ix3 y⟩
  obtain rfl : u = 0 := Subsingleton.elim _ _
  obtain rfl : v = 0 := Subsingleton.elim _ _
  exact Running.out2_val m c t ht r b n hb hn

/-- What a point that gives the first output writes back is its block of the table of minima over the second cloud. -/
theorem flushed2_eq (c : Dev nD) (t : Fin cfg0.N) (hf : (cfg0.win 2).flush t = true) :
    (dats m 0 c).flushed 2 t = ((cfg0.win 2).blk t).view.read (Elt Ideal)
      (fun i : S4x8192x1.Idx => Cert.Chamfer.toSecond (Running.X0 m c) (Running.X1 m c) (i 0) (i 1)) := by
  have ht := (flush0_2 t).mp hf
  have hN : cfg0.N = 64 := N_0
  have htl := t.isLt
  obtain ⟨h0, h1, h2⟩ := Blocks.idx2 t
  show (cfg0.win 2).cut (grid0.coords t) ((dats m 0 c).after 2 t) = _
  rw [after0_2]
  funext y
  rw [View.read_apply]
  have hy0 : ((y : S1x1024x1.Idx) 0).val < 1 := ((y : S1x1024x1.Idx) 0).isLt
  have hy1 : ((y : S1x1024x1.Idx) 1).val < 1024 := ((y : S1x1024x1.Idx) 1).isLt
  have e0 : (⟨t.val / 16, by omega⟩ : Fin 4) = ((cfg0.win 2).blk t).view.emb y 0 := Fin.ext (by
    show t.val / 16 = win0_2.index t 0 * 1 + 1 * ((y : S1x1024x1.Idx) 0).val
    rw [h0]; omega)
  have e1 : (⟨1024 * (t.val % 16 / 2) + ((y : S1x1024x1.Idx) 1).val, by omega⟩ : Fin 8192)
      = ((cfg0.win 2).blk t).view.emb y 1 := Fin.ext (by
    show 1024 * (t.val % 16 / 2) + ((y : S1x1024x1.Idx) 1).val
      = win0_2.index t 1 * 1024 + 1 * ((y : S1x1024x1.Idx) 1).val
    rw [h1]; omega)
  refine (out2_block_apply m c t ht y ⟨t.val / 16, by omega⟩
    ⟨1024 * (t.val % 16 / 2) + ((y : S1x1024x1.Idx) 1).val, by omega⟩ rfl rfl).trans ?_
  show Cert.Chamfer.toSecond _ _ _ _ = Cert.Chamfer.toSecond _ _ _ _
  exact congrArg₂ (Cert.Chamfer.toSecond (Running.X0 m c) (Running.X1 m c)) e0 e1

/-- An index of the first output is in point `t`'s block iff each coordinate is in the block's range on its axis. -/
theorem mem_blk2 (t : Fin cfg0.N) (i : S4x8192x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl

/-- Every entry `(b, n, 0)` of the first output lies in the block given at the point `16·b + 2·(n / 1024) + 1`. -/
theorem cover2 (i : S4x8192x1.Idx) :
    ∃ t : Fin cfg0.N, (cfg0.win 2).flush t = true ∧ i ∈ ((cfg0.win 2).blk t).view.set := by
  have hN : cfg0.N = 64 := N_0
  have hi0 : (i 0).val < 4 := (i 0).isLt
  have hi1 : (i 1).val < 8192 := (i 1).isLt
  have hi2 : (i 2).val < 1 := (i 2).isLt
  have hlt : 16 * (i 0).val + 2 * ((i 1).val / 1024) + 1 < cfg0.N := by rw [hN]; omega
  have hfl : (cfg0.win 2).flush ⟨16 * (i 0).val + 2 * ((i 1).val / 1024) + 1, hlt⟩ = true :=
    (flush0_2 _).mpr (by show (16 * (i 0).val + 2 * ((i 1).val / 1024) + 1) % 2 = 1; omega)
  refine ⟨⟨16 * (i 0).val + 2 * ((i 1).val / 1024) + 1, hlt⟩, hfl, ?_⟩
  rw [mem_blk2]
  obtain ⟨h0, h1, h2⟩ := Blocks.idx2 ⟨16 * (i 0).val + 2 * ((i 1).val / 1024) + 1, hlt⟩
  intro a
  match a with
  | ⟨0, _⟩ =>
    show win0_2.index _ 0 * 1 ≤ (i 0).val ∧ (i 0).val < win0_2.index _ 0 * 1 + 1
    rw [h0]; dsimp only; omega
  | ⟨1, _⟩ =>
    show win0_2.index _ 1 * 1024 ≤ (i 1).val ∧ (i 1).val < win0_2.index _ 1 * 1024 + 1024
    rw [h1]; dsimp only; omega
  | ⟨2, _⟩ =>
    show win0_2.index _ 2 * 1 ≤ (i 2).val ∧ (i 2).val < win0_2.index _ 2 * 1 + 1
    rw [h2]; omega

/-- After the run the first output holds, at `(b, n, 0)`, the least squared distance of point `n` of the first cloud to
    the second cloud in batch `b`. -/
theorem final2 (c : Dev nD) : (dats m 0 c).arrAt 2 cfg0.N
    = fun i : S4x8192x1.Idx => Cert.Chamfer.toSecond (Running.X0 m c) (Running.X1 m c) (i 0) (i 1) :=
  (dats m 0 c).arrAt_eq_of_cover 2 _ (fun t hf => flushed2_eq m c t hf) cover2

/-! ## The second output: each point of the second cloud to its nearest point of the first -/

/-- What the second output's block holds where it is given, entry by entry: the whole row of batch `t / 16`. -/
theorem out3_block_apply (c : Dev nD) (t : Fin cfg0.N) (ht : t.val % 16 = 15) (y : S1x1x8192.Idx) (b : Fin 4)
    (hb : b.val = t.val / 16) :
    (outsAt0 m c t.val t.isLt).2.1 y = Cert.Chamfer.toFirst (Running.X0 m c) (Running.X1 m c) b (y 2) := by
  obtain ⟨u, v, col, rfl⟩ : ∃ (u : Fin 1) (v : Fin 1) (col : Fin 8192), y = ix3 u v col := ⟨y 0, y 1, y 2, eq_ix3 y⟩
  obtain rfl : u = 0 := Subsingleton.elim _ _
  obtain rfl : v = 0 := Subsingleton.elim _ _
  exact Running.out3_val m c t ht col b hb

/-- What a point that gives the second output writes back is its block of the table of minima over the first cloud. -/
theorem flushed3_eq (c : Dev nD) (t : Fin cfg0.N) (hf : (cfg0.win 3).flush t = true) :
    (dats m 0 c).flushed 3 t = ((cfg0.win 3).blk t).view.read (Elt Ideal)
      (fun i : S4x1x8192.Idx => Cert.Chamfer.toFirst (Running.X0 m c) (Running.X1 m c) (i 0) (i 2)) := by
  have ht := (flush0_3 t).mp hf
  have hN : cfg0.N = 64 := N_0
  have htl := t.isLt
  obtain ⟨h0, h1, h2⟩ := Blocks.idx3 t
  show (cfg0.win 3).cut (grid0.coords t) ((dats m 0 c).after 3 t) = _
  rw [after0_3]
  funext y
  rw [View.read_apply]
  have hy0 : ((y : S1x1x8192.Idx) 0).val < 1 := ((y : S1x1x8192.Idx) 0).isLt
  have hy2 : ((y : S1x1x8192.Idx) 2).val < 8192 := ((y : S1x1x8192.Idx) 2).isLt
  have e0 : (⟨t.val / 16, by omega⟩ : Fin 4) = ((cfg0.win 3).blk t).view.emb y 0 := Fin.ext (by
    show t.val / 16 = win0_3.index t 0 * 1 + 1 * ((y : S1x1x8192.Idx) 0).val
    rw [h0]; omega)
  have e2 : ((y : S1x1x8192.Idx) 2 : Fin 8192) = ((cfg0.win 3).blk t).view.emb y 2 := Fin.ext (by
    show ((y : S1x1x8192.Idx) 2).val = win0_3.index t 2 * 8192 + 1 * ((y : S1x1x8192.Idx) 2).val
    rw [h2]; omega)
  refine (out3_block_apply m c t ht y ⟨t.val / 16, by omega⟩ rfl).trans ?_
  show Cert.Chamfer.toFirst _ _ _ _ = Cert.Chamfer.toFirst _ _ _ _
  exact congrArg₂ (Cert.Chamfer.toFirst (Running.X0 m c) (Running.X1 m c)) e0 e2

/-- An index of the second output is in point `t`'s block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v1_1).slice (win0_3.rect t)).set ↔ _
  rw [View.set_slice_whole, Rect.mem_set_unit]
  exact Iff.rfl

/-- Every entry `(b, 0, j)` of the second output lies in the block given at the last point of batch `b`, `16·b + 15`. -/
theorem cover3 (i : S4x1x8192.Idx) :
    ∃ t : Fin cfg0.N, (cfg0.win 3).flush t = true ∧ i ∈ ((cfg0.win 3).blk t).view.set := by
  have hN : cfg0.N = 64 := N_0
  have hi0 : (i 0).val < 4 := (i 0).isLt
  have hi1 : (i 1).val < 1 := (i 1).isLt
  have hi2 : (i 2).val < 8192 := (i 2).isLt
  have hlt : 16 * (i 0).val + 15 < cfg0.N := by rw [hN]; omega
  have hfl : (cfg0.win 3).flush ⟨16 * (i 0).val + 15, hlt⟩ = true :=
    (flush0_3 _).mpr (by show (16 * (i 0).val + 15) % 16 = 15; omega)
  refine ⟨⟨16 * (i 0).val + 15, hlt⟩, hfl, ?_⟩
  rw [mem_blk3]
  obtain ⟨h0, h1, h2⟩ := Blocks.idx3 ⟨16 * (i 0).val + 15, hlt⟩
  intro a
  match a with
  | ⟨0, _⟩ =>
    show win0_3.index _ 0 * 1 ≤ (i 0).val ∧ (i 0).val < win0_3.index _ 0 * 1 + 1
    rw [h0]; dsimp only; omega
  | ⟨1, _⟩ =>
    show win0_3.index _ 1 * 1 ≤ (i 1).val ∧ (i 1).val < win0_3.index _ 1 * 1 + 1
    rw [h1]; omega
  | ⟨2, _⟩ =>
    show win0_3.index _ 2 * 8192 ≤ (i 2).val ∧ (i 2).val < win0_3.index _ 2 * 8192 + 8192
    rw [h2]; omega

/-- After the run the second output holds, at `(b, 0, j)`, the least squared distance of point `j` of the second cloud to
    the first cloud in batch `b`. -/
theorem final3 (c : Dev nD) : (dats m 0 c).arrAt 3 cfg0.N
    = fun i : S4x1x8192.Idx => Cert.Chamfer.toFirst (Running.X0 m c) (Running.X1 m c) (i 0) (i 2) :=
  (dats m 0 c).arrAt_eq_of_cover 3 _ (fun t hf => flushed3_eq m c t hf) cover3

/-! ## The chain of means after the kernel -/

/-- An `[a, b, 1]` array cast to `[a, b]` reads, at `(i, j)`, the operand at `(i, j, 0)`: both sit at row-major position
    `i * b + j`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- The first output with its trailing unit axis dropped is the table of minima over the second cloud. -/
theorem squeeze2_eq (c : Dev nD) (A : S4x8192x1.Idx → EReal)
    (hA : A = fun i : S4x8192x1.Idx => Cert.Chamfer.toSecond (Running.X0 m c) (Running.X1 m c) (i 0) (i 1)) :
    shapeCast S4x8192 A shapeCasts_S4x8192x1_S4x8192
      = Cert.Chamfer.toSecondArr (Running.X0 m c) (Running.X1 m c) := by
  subst hA
  funext j
  obtain ⟨b, n, rfl⟩ : ∃ (b : Fin 4) (n : Fin 8192), j = ix2 b n := ⟨j 0, j 1, eq_ix2 j⟩
  rw [shapeCast_ab1_ab_apply, Cert.Chamfer.toSecondArr_apply]

/-- The second output with its middle unit axis dropped is the table of minima over the first cloud. -/
theorem squeeze3_eq (c : Dev nD) (A : S4x1x8192.Idx → EReal)
    (hA : A = fun i : S4x1x8192.Idx => Cert.Chamfer.toFirst (Running.X0 m c) (Running.X1 m c) (i 0) (i 2)) :
    shapeCast S4x8192 A shapeCasts_S4x1x8192_S4x8192
      = Cert.Chamfer.toFirstArr (Running.X0 m c) (Running.X1 m c) := by
  subst hA
  funext j
  obtain ⟨b, n, rfl⟩ : ∃ (b : Fin 4) (n : Fin 8192), j = ix2 b n := ⟨j 0, j 1, eq_ix2 j⟩
  rw [Cert.Lib.MidUnit.shapeCast_a1b_ab_apply, Cert.Chamfer.toFirstArr_apply]

/-- What the operations after the kernel leave in the result: the chain of means over the two tables of minima. -/
theorem tail_eq (c : Dev nD) :
    Pipeline.afterTail₀ cfgs (dats m) 0 (V0 m) [hostOps1] c main_v14
      = Cert.Chamfer.tail reducesTo_S4x8192_S4_d1 h_S_ bcast_S_S4 reducesTo_S4_S_d0
          (Cert.Chamfer.toSecondArr (Running.X0 m c) (Running.X1 m c))
          (Cert.Chamfer.toFirstArr (Running.X0 m c) (Running.X1 m c)) := by
  have e2 := squeeze2_eq m c _ ((Pipeline.withArrays_arr spec0 launch0.win.arr_inj c (V0 m c)
    (fun w => (dats m 0 c).arrAt w cfg0.N) 2).trans (final2 m c))
  have e3 := squeeze3_eq m c _ ((Pipeline.withArrays_arr spec0 launch0.win.arr_inj c (V0 m c)
    (fun w => (dats m 0 c).arrAt w cfg0.N) 3).trans (final3 m c))
  unfold Pipeline.afterTail₀
  show StableHlo.after hostOps1 _ (Proc.devRef .tc main_v14) = _
  after_results
  rw [← e2, ← e3]
  rfl

/-! ## The run, read -/

/-- Every weakly fair execution of the kernel program terminates with the result at the chain of means over the two
    tables of minima of the clouds it was launched with, and with the two clouds unchanged. -/
theorem run : θ_run defs (onTc (τ := τ) (main (F := Ideal))) ⟨m, fun _ => 0, ρ⟩ fun r => ∀ c : Dev nD,
      r.2.mem ((c : Thread nD τ).loc main_v14)
        = Cert.Chamfer.tail reducesTo_S4x8192_S4_d1 h_S_ bcast_S_S4 reducesTo_S4_S_d0
            (Cert.Chamfer.toSecondArr (Running.X0 m c) (Running.X1 m c))
            (Cert.Chamfer.toFirstArr (Running.X0 m c) (Running.X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩) (run_main m ρ)

end Cert.KernelIdeal.Result

end
-- ==== Proof.lean ====
/-
  The kernel against its reference: a two-sided nearest-neighbour loss of two point clouds.

  Both programs form, for every batch b and every pair (n, m), the squared distance (|p|² + |q|²) − 2·⟨p, q⟩ of point n of
  the first cloud to point m of the second, take its minimum over m for every n and over n for every m, and end with the
  same chain of means over those two tables. The reference does this on whole arrays. The kernel sweeps the tables in
  tiles of 1024 × 4096, keeping a running minimum along each axis across the grid, and gives a block of a table out when
  its sweep ends. Over the extended reals a minimum taken block after block is the minimum taken whole (only the order
  is used, so the infinities need no care), the three-term sums agree term for term, and a change of float format is the
  identity: the two results are one term.

  The three frames are the generated ones (the reference's is its generated run with the result dropped); the
  idealization rewrote nothing, so `preserves` has nothing to state.
-/
import proofs.«162795_j26628797235307_2_alg».proof.Defs
import proofs.«162795_j26628797235307_2_alg».proof.Proof.Gen.Kernel
import proofs.«162795_j26628797235307_2_alg».proof.Proof.Gen.Kernel.Skeleton
import proofs.«162795_j26628797235307_2_alg».proof.Proof.Gen.Kernel.Launch
import proofs.«162795_j26628797235307_2_alg».proof.Proof.Gen.Kernel.Points
import proofs.«162795_j26628797235307_2_alg».proof.Proof.Gen.Kernel.Frame
import proofs.«162795_j26628797235307_2_alg».proof.Proof.Gen.KernelIdeal
import proofs.«162795_j26628797235307_2_alg».proof.Proof.Gen.KernelIdeal.Skeleton
import proofs.«162795_j26628797235307_2_alg».proof.Proof.Gen.KernelIdeal.Launch
import proofs.«162795_j26628797235307_2_alg».proof.Proof.Gen.KernelIdeal.Points
import proofs.«162795_j26628797235307_2_alg».proof.Proof.Gen.KernelIdeal.Frame
import proofs.«162795_j26628797235307_2_alg».proof.Proof.Gen.ReferenceIdeal
import proofs.«162795_j26628797235307_2_alg».proof.Proof.Gen.ReferenceIdeal.Run
import proofs.«162795_j26628797235307_2_alg».proof.Proof.Gen.ReferenceIdeal.Read
import proofs.«162795_j26628797235307_2_alg».proof.Proof.Gen.Pre_finite_inputs
import proofs.«162795_j26628797235307_2_alg».proof.Proof.Spec
import proofs.«162795_j26628797235307_2_alg».proof.Proof.RefValue
import proofs.«162795_j26628797235307_2_alg».proof.Proof.Result
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the chain of means over the two tables of minima of the same two clouds. -/
theorem algebraic : Cert.algebraic_KernelIdeal_ReferenceIdeal := by
  intro m ρ m' ρ' _ hagree
  refine ⟨fun c => Cert.Chamfer.tail Cert.KernelIdeal.Gen.reducesTo_S4x8192_S4_d1 Cert.KernelIdeal.Gen.h_S_
      Cert.KernelIdeal.Gen.bcast_S_S4 Cert.KernelIdeal.Gen.reducesTo_S4_S_d0
      (Cert.Chamfer.toSecondArr (Cert.KernelIdeal.Running.X0 m c) (Cert.KernelIdeal.Running.X1 m c))
      (Cert.Chamfer.toFirstArr (Cert.KernelIdeal.Running.X0 m c) (Cert.KernelIdeal.Running.X1 m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Chamfer.Ref.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
